-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg9 : FVec F S128x47 .f32) (main_arg10 : FVec F S128x47 .f32) (main_arg11 : FVec F S47 .f32) (main_v33 : IVec S_ 1) : IVec S_ 1 :=
  let main_v34 : FVec F S128x47 .f32 := Host.absf main_arg9
  let main_cst_12 : FVec F S_ .f32 := constant S_ .f32 0x7F800000#32
  let main_v35 : FVec F S128x47 .f32 := broadcastInDim S128x47 ![] bcast_S_S128x47 main_cst_12
  let main_v36 : IVec S128x47 1 := cmpf .olt main_v34 main_v35
  let main_c_13 : IVec S_ 1 := constantI S_ 1 1#1
  let main_v37 : IVec S_ 1 := (fun x v => Host.reduce IntOp.andi x v reducesTo_S128x47_S_d0_1 h_S_) main_v36 main_c_13
  let main_v38 : IVec S_ 1 := andi main_v33 main_v37
  let main_v39 : FVec F S128x47 .f32 := Host.absf main_arg10
  let main_cst_14 : FVec F S_ .f32 := constant S_ .f32 0x7F800000#32
  let main_v40 : FVec F S128x47 .f32 := broadcastInDim S128x47 ![] bcast_S_S128x47 main_cst_14
  let main_v41 : IVec S128x47 1 := cmpf .olt main_v39 main_v40
  let main_c_15 : IVec S_ 1 := constantI S_ 1 1#1
  let main_v42 : IVec S_ 1 := (fun x v => Host.reduce IntOp.andi x v reducesTo_S128x47_S_d0_1 h_S_) main_v41 main_c_15
  let main_v43 : IVec S_ 1 := andi main_v38 main_v42
  let main_v44 : FVec F S47 .f32 := Host.absf main_arg11
  let main_cst_16 : FVec F S_ .f32 := constant S_ .f32 0x7F800000#32
  let main_v45 : FVec F S47 .f32 := broadcastInDim S47 ![] bcast_S_S47 main_cst_16
  let main_v46 : IVec S47 1 := cmpf .olt main_v44 main_v45
  let main_c_17 : IVec S_ 1 := constantI S_ 1 1#1
  let main_v47 : IVec S_ 1 := (fun x v => Host.reduce IntOp.andi x v reducesTo_S47_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x47 .f32) (main_arg10 : FVec F S128x47 .f32) (main_arg11 : FVec F S47 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x47 .f32) (main_arg10 : FVec F S128x47 .f32) (main_arg11 : FVec F S47 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S10000x128 : Shape := ⟨2, ![10000, 128]⟩
abbrev S1x47 : Shape := ⟨2, ![1, 47]⟩
abbrev S100000x47 : Shape := ⟨2, ![100000, 47]⟩
abbrev S10000x47 : Shape := ⟨2, ![10000, 47]⟩
abbrev S10000 : Shape := ⟨1, ![10000]⟩
abbrev S10000x1 : Shape := ⟨2, ![10000, 1]⟩

abbrev nBuf : Space → Nat
  | .hbm => 78
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x47, .f32⟩
  | .hbm, ⟨10, _⟩ => ⟨S128x47, .f32⟩
  | .hbm, ⟨11, _⟩ => ⟨S47, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S1x47, .f32⟩
  | .hbm, ⟨77, _⟩ => ⟨S100000x47, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x47, .f32⟩
  | .local _ .vmem, ⟨23, _⟩ => ⟨S128x47, .f32⟩
  | .local _ .vmem, ⟨24, _⟩ => ⟨S1x47, .f32⟩
  | .local _ .vmem, ⟨25, _⟩ => ⟨S10000x47, .f32⟩
  | .local _ .vmem, ⟨26, _⟩ => ⟨S10000x47, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_10 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x47 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x47 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x47 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x47 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S47_S1x47 : S47.ShapeCasts S1x47
  inb_S128x47_S128x47_0_0 : ∀ a, (![0, 0] : Fin 2 → Nat) a + S128x47.size a ≤ S128x47.size a
  h_S128x47 : 0 < S128x47.numel
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S10000x47 : S1x47.Broadcasts S10000x47
  reduces_S10000x47_S10000 : S10000x47.Reduces [1] S10000
  shapeCasts_S10000_S10000x1 : S10000.ShapeCasts S10000x1
  broadcasts_S10000x1_S10000x47 : S10000x1.Broadcasts S10000x47
  inb_S10000x47_S10000x47_0_0 : ∀ a, (![0, 0] : Fin 2 → Nat) a + S10000x47.size a ≤ S10000x47.size a
  h_S10000x47 : 0 < S10000x47.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  dot_S10000x128_S128x47_S10000x47_1_0_0_1_n_n_wf : DotDims.WF S10000x128 S128x47 S10000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S100000x128.size a
  hwx0_5 : ∀ i : grid0.Coords, EltTy.bits .f32 = 32 ∨ (Rect.block (s := S100000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S100000x128.size a
  hwx2_1 : ∀ i : grid2.Coords, EltTy.bits .f32 = 32 ∨ (Rect.block (s := S100000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x47.size a ≤ S128x47.size a
  hwx2_2 : ∀ i : grid2.Coords, EltTy.bits .f32 = 32 ∨ (Rect.block (s := S128x47) S128x47.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x47.size a ≤ S128x47.size a
  hwx2_3 : ∀ i : grid2.Coords, EltTy.bits .f32 = 32 ∨ (Rect.block (s := S128x47) S128x47.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x47.size a ≤ S1x47.size a
  hwx2_4 : ∀ i : grid2.Coords, EltTy.bits .f32 = 32 ∨ (Rect.block (s := S1x47) S1x47.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x47.size a ≤ S100000x47.size a
  hwx2_5 : ∀ i : grid2.Coords, EltTy.bits .f32 = 32 ∨ (Rect.block (s := S100000x47) S10000x47.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x47_S10000x47_1_0_0_1_n_n : DotDims S10000x128 S128x47 S10000x47 where
  lhsContracting := [1]
  rhsContracting := [0]
  lhsNonContracting := [0]
  rhsNonContracting := [1]
  lhsBatch := []
  rhsBatch := []
  wf := dot_S10000x128_S128x47_S10000x47_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x47.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x47.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S10000x47.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x47 : Shape := ⟨2, ![100000, 47]⟩
abbrev S1x47 : Shape := ⟨2, ![1, 47]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x47, .f32⟩
  | .hbm, ⟨10, _⟩ => ⟨S128x47, .f32⟩
  | .hbm, ⟨11, _⟩ => ⟨S47, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x128, .f32⟩
  | .hbm, ⟨83, _⟩ => ⟨S_, .f32⟩
  | .hbm, ⟨84, _⟩ => ⟨S100000x128, .f32⟩
  | .hbm, ⟨85, _⟩ => ⟨S1600000x1, .i32⟩
  | .hbm, ⟨86, _⟩ => ⟨S100000x128, .f32⟩
  | .hbm, ⟨87, _⟩ => ⟨S100000x1, .f32⟩
  | .hbm, ⟨88, _⟩ => ⟨S100000x128, .f32⟩
  | .hbm, ⟨89, _⟩ => ⟨S100000x128, .f32⟩
  | .hbm, ⟨90, _⟩ => ⟨S100000x47, .f32⟩
  | .hbm, ⟨91, _⟩ => ⟨S100000x47, .f32⟩
  | .hbm, ⟨92, _⟩ => ⟨S100000x47, .f32⟩
  | .hbm, ⟨93, _⟩ => ⟨S1x47, .f32⟩
  | .hbm, ⟨94, _⟩ => ⟨S100000x47, .f32⟩
  | .hbm, ⟨95, _⟩ => ⟨S100000x47, .f32⟩
  | .hbm, ⟨96, _⟩ => ⟨S_, .f32⟩
  | .hbm, ⟨97, _⟩ => ⟨S100000, .f32⟩
  | .hbm, ⟨98, _⟩ => ⟨S_, .f32⟩
  | .hbm, ⟨99, _⟩ => ⟨S100000, .f32⟩
  | .hbm, ⟨100, _⟩ => ⟨S100000, .f32⟩
  | .hbm, ⟨101, _⟩ => ⟨S100000x1, .f32⟩
  | .hbm, ⟨102, _⟩ => ⟨S100000x47, .f32⟩
  | .hbm, ⟨103, _⟩ => ⟨S100000x47, .f32⟩
  | .hbm, ⟨104, _⟩ => ⟨S100000x47, .f32⟩
  | .hbm, ⟨105, _⟩ => ⟨S_, .f32⟩
  | .hbm, ⟨106, _⟩ => ⟨S100000, .f32⟩
  | .hbm, ⟨107, _⟩ => ⟨S100000x1, .f32⟩
  | .hbm, ⟨108, _⟩ => ⟨S100000x1, .f32⟩
  | .hbm, ⟨109, _⟩ => ⟨S100000x47, .f32⟩
  | .hbm, ⟨110, _⟩ => ⟨S100000x47, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_c_8 : Ref sig .tc := ⟨.hbm, 74, rfl⟩
abbrev main_v48 : Ref sig .tc := ⟨.hbm, 75, rfl⟩
abbrev main_v49 : Ref sig .tc := ⟨.hbm, 76, rfl⟩
abbrev main_c_9 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_10 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call2_cst : Ref sig .tc := ⟨.hbm, 96, rfl⟩
abbrev main_call2_v0 : Ref sig .tc := ⟨.hbm, 97, rfl⟩
abbrev main_call2_cst_0 : Ref sig .tc := ⟨.hbm, 98, rfl⟩
abbrev main_call2_v1 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_v6 : Ref sig .tc := ⟨.hbm, 104, rfl⟩
abbrev main_call2_cst_1 : Ref sig .tc := ⟨.hbm, 105, rfl⟩
abbrev main_call2_v7 : Ref sig .tc := ⟨.hbm, 106, rfl⟩
abbrev main_call2_v8 : Ref sig .tc := ⟨.hbm, 107, rfl⟩
abbrev main_call2_v9 : Ref sig .tc := ⟨.hbm, 108, rfl⟩
abbrev main_call2_v10 : Ref sig .tc := ⟨.hbm, 109, rfl⟩
abbrev main_v67 : Ref sig .tc := ⟨.hbm, 110, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S47_S1x47_1 : S47.BroadcastsInDim S1x47 (![1] : Fin 1 → Fin S1x47.rank)
  bcast_S1x47_S100000x47_0_1 : S1x47.BroadcastsInDim S100000x47 (![0, 1] : Fin 2 → Fin S100000x47.rank)
  reducesTo_S100000x47_S100000_d1 : S100000x47.ReducesTo [1] S100000
  h_S_ : 0 < S_.numel
  bcast_S100000x1_S100000x47_0_1 : S100000x1.BroadcastsInDim S100000x47 (![0, 1] : Fin 2 → Fin S100000x47.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x47_S100000x47_1_0_0_1_n_n_wf : DotDims.WF S100000x128 S128x47 S100000x47 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x47_S100000x47_1_0_0_1_n_n : DotDims S100000x128 S128x47 S100000x47 where
  lhsContracting := [1]
  rhsContracting := [0]
  lhsNonContracting := [0]
  rhsNonContracting := [1]
  lhsBatch := []
  rhsBatch := []
  wf := dot_S100000x128_S128x47_S100000x47_1_0_0_1_n_n_wf

class Facts : Prop extends Facts₀ where

variable [Facts]
-- ==== Proof.KRun.lean ====
/-
  The idealized kernel's run with its result named.  The program is three grid kernels among stretches of host
  operations; every weakly fair execution ends with each unscoped buffer at the contents the last boundary of that
  chain gives it.  Read at the result buffer this says: the program's result is what the third kernel's write-backs
  leave in its output array; read at an argument, that the argument is as launched.
-/
import proofs.«156376_j6055903887402_1_alg».proof.Proof.KernelIdealFrameP

set_option maxRecDepth 16384

noncomputable section

namespace Cert.Proof.KRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the arguments
    as launched. -/
theorem run_result : θ_run defs (onTc (τ := τ) (main (F := F))) ⟨m, fun _ => 0, ρ⟩ (fun r => ∀ c : Dev nD,
      r.2.mem ((c.tc : Thread nD τ).loc main_v52) = W6 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v52 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.Proof.KRun

end
-- ==== Proof.KPayload.lean ====
/-
  The dense layer's arithmetic read at one entry.  Each of the three kernel bodies multiplies its block of node
  features by the self weights, its block of aggregated neighbour features by the neighbour weights, adds the two
  products and the bias row; the first two bodies then clamp at zero.  At the ideal instance a matrix product into
  the zero accumulator is the plain sum over the 128 contracted coordinates, so entry (p, q) of a body's result is
      Σ_k x(p,k)·w(k,q) + Σ_k y(p,k)·v(k,q) + b(0,q)
  (clamped at zero for the hidden layers).  The lemmas below say exactly that, over arbitrary loaded blocks.
-/
import proofs.«156376_j6055903887402_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.Proof.KPayload

open Cert.KernelIdeal Cert.KernelIdeal.Gen Idealize.ShloMosaic Idealize.ShloMosaic.ValueIdx
open scoped BigOperators

theorem mm128_l0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem mm128_r1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Row p, column q of a [10000,128] × [128,128] product into the zero accumulator: the sum over the contracted
    coordinate of the row's entries times the column's. -/
theorem mm128 (x : FVec Ideal S10000x128 .f32) (w : FVec Ideal S128x128 .f32) (p : Fin 10000) (q : Fin 128) :
    matmul (F := Ideal) (φ₁ := .f32) (φ₂ := .f32) dot_S10000x128_S128x128_S10000x128_1_0_0_1_n_n none x w (constant (F := Ideal) S10000x128 .f32 0x00000000#32) (ix2 p q)
      = ∑ k : Fin 128, x (ix2 p k) * w (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact mm128_l0 _ _
    | ⟨1, _⟩ => exact (dot_S10000x128_S128x128_S10000x128_1_0_0_1_n_n.lhsIdx_val_of_single rfl _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (dot_S10000x128_S128x128_S10000x128_1_0_0_1_n_n.rhsIdx_val_of_single rfl _ _).trans hk
    | ⟨1, _⟩ => exact mm128_r1 _ _)
  rw [el, er]

theorem mm47_l0 (i : S10000x47.Idx) (q : dot_S10000x128_S128x47_S10000x47_1_0_0_1_n_n.contr.Idx) : (dot_S10000x128_S128x47_S10000x47_1_0_0_1_n_n.lhsIdx i q 0).val = (i 0).val := by
  unfold DotDims.lhsIdx
  rw [dif_neg (show ¬(0 : Fin S10000x128.rank) ∈ dot_S10000x128_S128x47_S10000x47_1_0_0_1_n_n.lhsBatch by decide), dif_pos (show (0 : Fin S10000x128.rank) ∈ dot_S10000x128_S128x47_S10000x47_1_0_0_1_n_n.lhsNonContracting by decide)]
  rfl
theorem mm47_r1 (i : S10000x47.Idx) (q : dot_S10000x128_S128x47_S10000x47_1_0_0_1_n_n.contr.Idx) : (dot_S10000x128_S128x47_S10000x47_1_0_0_1_n_n.rhsIdx i q 1).val = (i 1).val := by
  unfold DotDims.rhsIdx
  rw [dif_neg (show ¬(1 : Fin S128x47.rank) ∈ dot_S10000x128_S128x47_S10000x47_1_0_0_1_n_n.rhsBatch by decide), dif_pos (show (1 : Fin S128x47.rank) ∈ dot_S10000x128_S128x47_S10000x47_1_0_0_1_n_n.rhsNonContracting by decide)]
  rfl

/-- The same for the classifier head's [10000,128] × [128,47] product. -/
theorem mm47 (x : FVec Ideal S10000x128 .f32) (w : FVec Ideal S128x47 .f32) (p : Fin 10000) (q : Fin 47) :
    matmul (F := Ideal) (φ₁ := .f32) (φ₂ := .f32) dot_S10000x128_S128x47_S10000x47_1_0_0_1_n_n none x w (constant (F := Ideal) S10000x47 .f32 0x00000000#32) (ix2 p q)
      = ∑ k : Fin 128, x (ix2 p k) * w (ix2 k q) := by
  simp only [matmul]
  rw [Ideal.matmul_constant_zero_apply, ← Equiv.sum_comp (contrEquiv1 dot_S10000x128_S128x47_S10000x47_1_0_0_1_n_n 128 rfl rfl).symm]
  refine Finset.sum_congr rfl fun k _ => ?_
  have hk := contrEquiv1_symm_val dot_S10000x128_S128x47_S10000x47_1_0_0_1_n_n 128 rfl rfl k
  have el : dot_S10000x128_S128x47_S10000x47_1_0_0_1_n_n.lhsIdx (ix2 p q) ((contrEquiv1 dot_S10000x128_S128x47_S10000x47_1_0_0_1_n_n 128 rfl rfl).symm k) = ix2 p k := funext fun a => Fin.ext (by
    match a with
    | ⟨0, _⟩ => exact mm47_l0 _ _
    | ⟨1, _⟩ => exact (dot_S10000x128_S128x47_S10000x47_1_0_0_1_n_n.lhsIdx_val_of_single rfl _ _).trans hk)
  have er : dot_S10000x128_S128x47_S10000x47_1_0_0_1_n_n.rhsIdx (ix2 p q) ((contrEquiv1 dot_S10000x128_S128x47_S10000x47_1_0_0_1_n_n 128 rfl rfl).symm k) = ix2 k q := funext fun a => Fin.ext (by
    match a with
    | ⟨0, _⟩ => exact (dot_S10000x128_S128x47_S10000x47_1_0_0_1_n_n.rhsIdx_val_of_single rfl _ _).trans hk
    | ⟨1, _⟩ => exact mm47_r1 _ _)
  rw [el, er]

/-- The bias row, spread over the block's rows, read at (p, q): the row's entry q. -/
theorem bias128 (b : Vec Ideal S1x128 .f32) (p : Fin 10000) (q : Fin 128) :
    broadcastTo S10000x128 (shapeCast S1x128 b shapeCasts_S1x128_S1x128) broadcasts_S1x128_S10000x128 (ix2 p q) = b (ix2 0 q) := by
  rw [shapeCast_self]
  exact broadcastTo_apply b broadcasts_S1x128_S10000x128 (ix2 p q) (ix2 0 q) (fun a => match a with
    | ⟨0, _⟩ => by show (0 : Nat) = if (1 : Nat) = 1 then 0 else _; rw [if_pos rfl]
    | ⟨1, _⟩ => by show q.val = if (128 : Nat) = 1 then 0 else q.val; rw [if_neg (by decide)])

theorem bias47 (b : Vec Ideal S1x47 .f32) (p : Fin 10000) (q : Fin 47) :
    broadcastTo S10000x47 (shapeCast S1x47 b shapeCasts_S1x47_S1x47) broadcasts_S1x47_S10000x47 (ix2 p q) = b (ix2 0 q) := by
  rw [shapeCast_self]
  exact broadcastTo_apply b broadcasts_S1x47_S10000x47 (ix2 p q) (ix2 0 q) (fun a => match a with
    | ⟨0, _⟩ => by show (0 : Nat) = if (1 : Nat) = 1 then 0 else _; rw [if_pos rfl]
    | ⟨1, _⟩ => by show q.val = if (47 : Nat) = 1 then 0 else q.val; rw [if_neg (by decide)])

/-- One entry of a hidden layer before the clamp, from blocks of features x, aggregated features y, the two weight
    matrices and the bias row. -/
def pre128 (x y : Vec Ideal S10000x128 .f32) (w v : Vec Ideal S128x128 .f32) (b : Vec Ideal S1x128 .f32) (p : Fin 10000) (q : Fin 128) : EReal :=
  (∑ k : Fin 128, x (ix2 p k) * w (ix2 k q)) + (∑ k : Fin 128, y (ix2 p k) * v (ix2 k q)) + b (ix2 0 q)

/-- One entry of the classifier head's scores. -/
def pre47 (x y : Vec Ideal S10000x128 .f32) (w v : Vec Ideal S128x47 .f32) (b : Vec Ideal S1x47 .f32) (p : Fin 10000) (q : Fin 47) : EReal :=
  (∑ k : Fin 128, x (ix2 p k) * w (ix2 k q)) + (∑ k : Fin 128, y (ix2 p k) * v (ix2 k q)) + b (ix2 0 q)

/-- The first layer's body at (p, q): the clamped entry. -/
theorem pay0_apply (x : Vec Ideal S10000x128 .f32) (w : Vec Ideal S128x128 .f32) (y : Vec Ideal S10000x128 .f32) (v : Vec Ideal S128x128 .f32)
    (b : Vec Ideal S1x128 .f32) (p : Fin 10000) (q : Fin 128) :
    k0_pay1 (F := Ideal) x w y v b (ix2 p q) = max (pre128 x y w v b p q) 0 := by
  unfold k0_pay1 pre128
  show max ((_ + _) + _) (Ideal.ofBits .f32 0x00000000#32) = _
  rw [Ideal.ofBits_zero_f32]
  refine congrArg (fun z => max z 0) ?_
  refine congrArg₂ (· + ·) (congrArg₂ (· + ·) (mm128 x w p q) ?_) (bias128 b p q)
  rw [shapeCast_self]
  exact mm128 y v p q

/-- The second layer's body at (p, q): the same clamped entry. -/
theorem pay1_apply (x : Vec Ideal S10000x128 .f32) (w : Vec Ideal S128x128 .f32) (y : Vec Ideal S10000x128 .f32) (v : Vec Ideal S128x128 .f32)
    (b : Vec Ideal S1x128 .f32) (p : Fin 10000) (q : Fin 128) :
    k1_pay1 (F := Ideal) x w y v b (ix2 p q) = max (pre128 x y w v b p q) 0 := by
  unfold k1_pay1 pre128
  show max ((_ + _) + _) (Ideal.ofBits .f32 0x00000000#32) = _
  rw [Ideal.ofBits_zero_f32]
  refine congrArg (fun z => max z 0) ?_
  refine congrArg₂ (· + ·) (congrArg₂ (· + ·) ?_ ?_) (bias128 b p q)
  · rw [shapeCast_self]; exact mm128 x w p q
  · rw [shapeCast_self]; exact mm128 y v p q

/-! ## The classifier head: scores, then the log-softmax of each row -/

/-- A column spread over the 47 columns reads its row's entry. -/
theorem bcol (x : FVec Ideal S10000x1 .f32) (p : Fin 10000) (q : Fin 47) :
    broadcastTo S10000x47 x broadcasts_S10000x1_S10000x47 (ix2 p q) = x (ix2 p (0 : Fin 1)) :=
  broadcastTo_apply x broadcasts_S10000x1_S10000x47 (ix2 p q) (ix2 p (0 : Fin 1)) (fun a => match a with
    | ⟨0, _⟩ => by show p.val = if (10000 : Nat) = 1 then 0 else p.val; rw [if_neg (by decide)]
    | ⟨1, _⟩ => by show (0 : Nat) = if (1 : Nat) = 1 then 0 else _; rw [if_pos rfl])

/-- A vector recast as a column reads the same entry. -/
theorem ccol (v : FVec Ideal S10000 .f32) (p : Fin 10000) :
    shapeCast S10000x1 v shapeCasts_S10000_S10000x1 (ix2 p (0 : Fin 1)) = v (ix1 p) :=
  shapeCast_apply v shapeCasts_S10000_S10000x1 (ix2 p (0 : Fin 1)) (ix1 p) (by
    rw [Shape.rowMajor_val_one, Shape.rowMajor_val_two]; show p.val = p.val * 1 + 0; omega)

/-- A row's maximum: the fold of max from -∞ over the row's 47 entries. -/
theorem rowmax (s : FVec Ideal S10000x47 .f32) (p : Fin 10000) :
    multiReduction (F := Ideal) .maximumf [1] S10000 s 0xFF800000#32 reduces_S10000x47_S10000 (.inl rfl) rfl (ix1 p)
      = (Finset.univ : Finset (Fin 47)).fold max (⊥ : EReal) (fun j => s (ix2 p j)) := by
  refine (Ideal.multiReduction_maximumf_single s 0xFF800000#32 reduces_S10000x47_S10000 (.inl rfl) rfl (ix1 p)).trans ?_
  have hb : (FloatOps.ofBits (F := Ideal) .f32 0xFF800000#32 : EReal) = ⊥ := by
    show Ideal.ofBits .f32 0xFF800000#32 = ⊥
    simp [Ideal.ofBits, Ideal.ieee]
  rw [hb]
  refine congrArg (fun f => Finset.fold max (⊥ : EReal) f (Finset.univ : Finset (Fin 47))) (funext fun j => ?_)
  exact congrArg s (funext fun a => Fin.ext (by match a with | ⟨0, _⟩ => rfl | ⟨1, _⟩ => rfl))

/-- A row's sum: the sum of its 47 entries. -/
theorem rowsum (s : FVec Ideal S10000x47 .f32) (p : Fin 10000) :
    multiReduction (F := Ideal) .add [1] S10000 s 0x00000000#32 reduces_S10000x47_S10000 (.inl rfl) rfl (ix1 p)
      = ∑ j : Fin 47, s (ix2 p j) := by
  refine (Ideal.multiReduction_add_single s 0x00000000#32 reduces_S10000x47_S10000 (.inl rfl) rfl (ix1 p)).trans ?_
  exact Finset.sum_congr rfl fun j _ => congrArg s (funext fun a => Fin.ext (by match a with | ⟨0, _⟩ => rfl | ⟨1, _⟩ => rfl))

/-- The log-softmax of a row a of 47 scores at entry q, as the kernel computes it: a(q) − (M + log Σ_k exp (a(k) − M)),
    M the row's maximum. -/
def lsm (a : Fin 47 → EReal) (q : Fin 47) : EReal :=
  a q - ((Finset.univ : Finset (Fin 47)).fold max (⊥ : EReal) a
    + Ideal.log (∑ k : Fin 47, Ideal.exp (a k - (Finset.univ : Finset (Fin 47)).fold max (⊥ : EReal) a)))

/-- The vector operations of the kernel's log-softmax over a block s of scores, read at (p, q): lsm of row p. -/
theorem lsm_vec (s : FVec Ideal S10000x47 .f32) (p : Fin 10000) (q : Fin 47) :
    subf s (broadcastTo S10000x47
        (addf (shapeCast S10000x1 (multiReduction (F := Ideal) .maximumf [1] S10000 s 0xFF800000#32 reduces_S10000x47_S10000 (.inl rfl) rfl) shapeCasts_S10000_S10000x1)
          (log (shapeCast S10000x1 (multiReduction (F := Ideal) .add [1] S10000
            (exp (subf s (broadcastTo S10000x47 (shapeCast S10000x1 (multiReduction (F := Ideal) .maximumf [1] S10000 s 0xFF800000#32 reduces_S10000x47_S10000 (.inl rfl) rfl) shapeCasts_S10000_S10000x1) broadcasts_S10000x1_S10000x47)))
            0x00000000#32 reduces_S10000x47_S10000 (.inl rfl) rfl) shapeCasts_S10000_S10000x1)))
        broadcasts_S10000x1_S10000x47) (ix2 p q)
      = lsm (fun j => s (ix2 p j)) q := by
  have hM : ∀ j : Fin 47, broadcastTo S10000x47 (shapeCast S10000x1 (multiReduction (F := Ideal) .maximumf [1] S10000 s 0xFF800000#32 reduces_S10000x47_S10000 (.inl rfl) rfl) shapeCasts_S10000_S10000x1) broadcasts_S10000x1_S10000x47 (ix2 p j)
      = (Finset.univ : Finset (Fin 47)).fold max (⊥ : EReal) (fun j => s (ix2 p j)) := fun j =>
    (bcol _ p j).trans ((ccol _ p).trans (rowmax s p))
  refine (congrArg (fun z => s (ix2 p q) - z) (bcol _ p q)).trans ?_
  unfold lsm
  refine congrArg (fun z => s (ix2 p q) - z) ?_
  refine congrArg₂ (· + ·) ((ccol _ p).trans (rowmax s p)) (congrArg Ideal.log ?_)
  refine (ccol _ p).trans ((rowsum _ p).trans (Finset.sum_congr rfl fun j _ => ?_))
  exact congrArg (fun z => Ideal.exp (s (ix2 p j) - z)) (hM j)

/-- The classifier head's body at (p, q): the log-softmax of row p of the scores. -/
theorem pay2_apply (x : Vec Ideal S10000x128 .f32) (w : Vec Ideal S128x47 .f32) (y : Vec Ideal S10000x128 .f32) (v : Vec Ideal S128x47 .f32)
    (b : Vec Ideal S1x47 .f32) (p : Fin 10000) (q : Fin 47) :
    k2_pay1 (F := Ideal) x w y v b (ix2 p q) = lsm (fun j => pre47 x y w v b p j) q := by
  unfold k2_pay1
  refine (lsm_vec _ p q).trans (congrArg (fun a => lsm a q) (funext fun j => ?_))
  unfold pre47
  refine congrArg₂ (· + ·) (congrArg₂ (· + ·) ?_ ?_) (bias47 b p j)
  · rw [shapeCast_self]; exact mm47 x w p j
  · rw [shapeCast_self]; exact mm47 y v p j

end Cert.Proof.KPayload

end
-- ==== Proof.KRegions.lean ====
/-
  From blocks to arrays.  Each of the three grid kernels walks ten row blocks of 10000 nodes; at point t it reads rows
  10000·t … 10000·t + 9999 of the node features and of the aggregated neighbour features, the two whole weight
  matrices and the bias row, and writes the same rows of its output.  So whatever the region finds in its five
  input arrays (the parameter V below), its output array ends holding ONE function of them, entry by entry: the
  ten written blocks are restrictions of that function and tile the array.
-/
import proofs.«156376_j6055903887402_1_alg».proof.Proof.KernelIdealFrameP
import proofs.«156376_j6055903887402_1_alg».proof.Proof.KPayload
import Idealize.ShloMosaic.Lib.Pipeline.Value

set_option maxRecDepth 16384

noncomputable section

namespace Cert.Proof.KRegions

open Cert.KernelIdeal Cert.KernelIdeal.Gen Cert.KernelIdeal.GenP Cert.Proof.KPayload
open Idealize.ShloMosaic Idealize.ShloMosaic.TcCoe Idealize.ShloMosaic.ValueIdx Idealize.SL.Sem
open Idealize.ShloMosaic.Pipeline (Dat)
open scoped BigOperators

theorem hz : (![0, 0] : Fin 2 → Nat) = fun _ => 0 := funext fun a => by fin_cases a <;> rfl

/-- One entry of a hidden layer before the clamp, over whole arrays: row r of the features h and of the aggregated
    features n against column q of the weights, plus the bias entry q. -/
def wpre128 (h n : S100000x128.Idx → EReal) (w v : S128x128.Idx → EReal) (b : S1x128.Idx → EReal) (r : Fin 100000) (q : Fin 128) : EReal :=
  (∑ k : Fin 128, h (ix2 r k) * w (ix2 k q)) + (∑ k : Fin 128, n (ix2 r k) * v (ix2 k q)) + b (ix2 (0 : Fin 1) q)

/-- One entry of the classifier head's scores, over whole arrays. -/
def wpre47 (h n : S100000x128.Idx → EReal) (w v : S128x47.Idx → EReal) (b : S1x47.Idx → EReal) (r : Fin 100000) (q : Fin 47) : EReal :=
  (∑ k : Fin 128, h (ix2 r k) * w (ix2 k q)) + (∑ k : Fin 128, n (ix2 r k) * v (ix2 k q)) + b (ix2 (0 : Fin 1) q)

/-- A hidden layer's entry: the clamp at zero of the above. -/
def out0At (h n : S100000x128.Idx → EReal) (w v : S128x128.Idx → EReal) (b : S1x128.Idx → EReal) (r : Fin 100000) (q : Fin 128) : EReal :=
  max (wpre128 h n w v b r q) 0
def out1At (h n : S100000x128.Idx → EReal) (w v : S128x128.Idx → EReal) (b : S1x128.Idx → EReal) (r : Fin 100000) (q : Fin 128) : EReal :=
  max (wpre128 h n w v b r q) 0

variable (V : (c : Dev nD) → (b : Ref sig .tc) → Buf (Elt Ideal) ((c : Thread nD τ).loc b))

/-! ## Region 0 -/

/-- The grid of region 0 has ten points. -/
theorem lt10_0 : ∀ t : Fin cfg0.N, t.val < 10 := (by decide +kernel : ∀ t : Fin grid0.N, t.val < 10)

/-- Where the windows sit at point t: the two feature windows and the output at row block t, the weights and the
    bias row at their whole arrays. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the block at point t is row 10000·t + p of the array. -/
def row0 (t : Fin cfg0.N) (p : Fin 10000) : Fin 100000 := ⟨t.val * 10000 + p.val, by have := lt10_0 t; omega⟩

/-- The node-feature block at point t, read at (p, k): the array's row 10000·t + p. -/
theorem blkH0 (c : Dev nD) (t : Fin cfg0.N) (p : Fin 10000) (k : Fin 128) :
    iblk0 V c 0 t (ix2 p k) = V c main_arg0 (ix2 (row0 t p) k) := by
  obtain ⟨e0, e1, -⟩ := idx_facts0 t
  show V c main_arg0 (((cfg0.win 0).blk t).view.emb (ix2 p k)) = V c main_arg0 (ix2 (row0 t p) k)
  refine congrArg _ (funext fun a => Fin.ext ?_)
  match a with
  | ⟨0, _⟩ => show win0_0.index t (0 : Fin 2) * 10000 + 1 * p.val = t.val * 10000 + p.val; omega
  | ⟨1, _⟩ => show win0_0.index t (1 : Fin 2) * 128 + 1 * k.val = k.val; omega

/-- The aggregated-feature block likewise. -/
theorem blkN0 (c : Dev nD) (t : Fin cfg0.N) (p : Fin 10000) (k : Fin 128) :
    iblk0 V c 1 t (ix2 p k) = V c main_v20 (ix2 (row0 t p) k) := by
  obtain ⟨-, -, e0, e1, -⟩ := idx_facts0 t
  show V c main_v20 (((cfg0.win 1).blk t).view.emb (ix2 p k)) = V c main_v20 (ix2 (row0 t p) k)
  refine congrArg _ (funext fun a => Fin.ext ?_)
  match a with
  | ⟨0, _⟩ => show win0_1.index t (0 : Fin 2) * 10000 + 1 * p.val = t.val * 10000 + p.val; omega
  | ⟨1, _⟩ => show win0_1.index t (1 : Fin 2) * 128 + 1 * k.val = k.val; omega

/-- The self-weight window is the whole matrix at every point. -/
theorem blkW0 (c : Dev nD) (t : Fin cfg0.N) (k : Fin 128) (q : Fin 128) :
    iblk0 V c 2 t (ix2 k q) = V c main_arg3 (ix2 k q) := by
  obtain ⟨-, -, -, -, e0, e1, -⟩ := idx_facts0 t
  show V c main_arg3 (((cfg0.win 2).blk t).view.emb (ix2 k q)) = V c main_arg3 (ix2 k q)
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- So is the neighbour-weight window. -/
theorem blkV0 (c : Dev nD) (t : Fin cfg0.N) (k : Fin 128) (q : Fin 128) :
    iblk0 V c 3 t (ix2 k q) = V c main_arg4 (ix2 k q) := by
  obtain ⟨-, -, -, -, -, -, e0, e1, -⟩ := idx_facts0 t
  show V c main_arg4 (((cfg0.win 3).blk t).view.emb (ix2 k q)) = V c main_arg4 (ix2 k q)
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- And the bias row. -/
theorem blkB0 (c : Dev nD) (t : Fin cfg0.N) (q : Fin 128) :
    iblk0 V c 4 t (ix2 (0 : Fin 1) q) = V c main_v21 (ix2 (0 : Fin 1) q) := by
  obtain ⟨-, -, -, -, -, -, -, -, e0, e1, -⟩ := idx_facts0 t
  show V c main_v21 (((cfg0.win 4).blk t).view.emb (ix2 (0 : Fin 1) q)) = V c main_v21 (ix2 (0 : Fin 1) q)
  refine congrArg _ (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- Rewriting a block's entry formula over the whole arrays, one point at a time. -/
theorem out0_blocks (c : Dev nD) (t : Fin cfg0.N) (p : Fin 10000) (q : Fin 128) :
    max (pre128 (iblk0 V c 0 t) (iblk0 V c 1 t) (iblk0 V c 2 t) (iblk0 V c 3 t) (iblk0 V c 4 t) p q) 0
      = out0At (V c main_arg0) (V c main_v20) (V c main_arg3) (V c main_arg4) (V c main_v21) (row0 t p) q := by
  unfold pre128 out0At wpre128
  refine congrArg (fun z => max z 0) ?_
  refine congrArg₂ (· + ·) (congrArg₂ (· + ·) (Finset.sum_congr rfl fun k _ => ?_) (Finset.sum_congr rfl fun k _ => ?_)) (blkB0 V c t q)
  · rw [blkH0 V c t p k, blkW0 V c t k q]
  · rw [blkN0 V c t p k, blkV0 V c t k q]

/-- What region 0's output array ends holding: entry (r, q) from row r of the features and of the aggregated
    features, column q of the two weight matrices, and entry q of the bias row. -/
def G0 (c : Dev nD) : S100000x128.Idx → EReal :=
  fun i => out0At (V c main_arg0) (V c main_v20) (V c main_arg3) (V c main_arg4) (V c main_v21) (i 0) (i 1)

/-- What point t writes back is block t of that array. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S10000x128) hz, View.ld_unit_zero (S := S128x128) hz, View.ld_unit_zero (S := S1x128) hz]
  funext j
  obtain ⟨p, q, rfl⟩ : ∃ (p : Fin 10000) (q : Fin 128), j = ix2 p q := ⟨j 0, j 1, eq_ix2 j⟩
  have hemb : ((cfg0.win 5).blk t).view.emb (ix2 p q) = ix2 (row0 t p) q := by
    obtain ⟨-, -, -, -, -, -, -, -, -, -, e0, e1⟩ := idx_facts0 t
    refine funext fun a => Fin.ext ?_
    match a with
    | ⟨0, _⟩ => show win0_5.index t (0 : Fin 2) * 10000 + 1 * p.val = t.val * 10000 + p.val; omega
    | ⟨1, _⟩ => show win0_5.index t (1 : Fin 2) * 128 + 1 * q.val = q.val; omega
  show k0_pay1 (F := Ideal) (iblk0 V c 0 t) (iblk0 V c 2 t) (iblk0 V c 1 t) (iblk0 V c 3 t) (iblk0 V c 4 t) (ix2 p q)
    = G0 V c (((cfg0.win 5).blk t).view.emb (ix2 p q))
  rw [hemb]
  refine (pay0_apply _ _ _ _ _ p q).trans ?_
  exact out0_blocks V c t p q

/-- An index of the output array is in point t's block iff each coordinate is in the block's range on its axis. -/
theorem mem_blk0 (t : Fin cfg0.N) (i : S100000x128.Idx) :
    i ∈ ((cfg0.win 5).blk t).view.set ↔ ∀ a : Fin 2, win0_5.index t a * S10000x128.size a ≤ (i a).val ∧ (i a).val < win0_5.index t a * S10000x128.size a + S10000x128.size a := by
  show i ∈ ((View.whole main_v22).slice (win0_5.rect t)).set ↔ _
  rw [View.set_slice_whole, Rect.mem_set_unit]
  exact Iff.rfl

/-- The ten row blocks cover the output array: row r lies in block r / 10000. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ : ∃ t : Fin cfg0.N, t.val = (i 0).val / 10000 :=
    (by decide +kernel : ∀ q : Fin 10, ∃ t : Fin grid0.N, t.val = q.val) ⟨(i 0).val / 10000, by omega⟩
  obtain ⟨-, -, -, -, -, -, -, -, -, -, e0, e1⟩ := idx_facts0 t
  refine ⟨t, flush0_5 t, ?_⟩
  rw [mem_blk0]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 128 ≤ (i 1).val ∧ (i 1).val < win0_5.index t (1 : Fin 2) * 128 + 128; omega

/-- So after the region its output array holds G0. -/
theorem final0 (c : Dev nD) : (dat0 V c).arrAt 5 cfg0.N = G0 V c :=
  (dat0 V c).arrAt_eq_of_cover 5 (G0 V c) (fun t _ => flushed0_eq V c t) cover0

/-! ## Region 1 -/

/-- The grid of region 1 has ten points. -/
theorem lt10_1 : ∀ t : Fin cfg1.N, t.val < 10 := (by decide +kernel : ∀ t : Fin grid1.N, t.val < 10)

/-- Where the windows sit at point t: the two feature windows and the output at row block t, the weights and the
    bias row at their whole arrays. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the block at point t is row 10000·t + p of the array. -/
def row1 (t : Fin cfg1.N) (p : Fin 10000) : Fin 100000 := ⟨t.val * 10000 + p.val, by have := lt10_1 t; omega⟩

/-- The node-feature block at point t, read at (p, k): the array's row 10000·t + p. -/
theorem blkH1 (c : Dev nD) (t : Fin cfg1.N) (p : Fin 10000) (k : Fin 128) :
    iblk1 V c 0 t (ix2 p k) = V c main_v22 (ix2 (row1 t p) k) := by
  obtain ⟨e0, e1, -⟩ := idx_facts1 t
  show V c main_v22 (((cfg1.win 0).blk t).view.emb (ix2 p k)) = V c main_v22 (ix2 (row1 t p) k)
  refine congrArg _ (funext fun a => Fin.ext ?_)
  match a with
  | ⟨0, _⟩ => show win1_0.index t (0 : Fin 2) * 10000 + 1 * p.val = t.val * 10000 + p.val; omega
  | ⟨1, _⟩ => show win1_0.index t (1 : Fin 2) * 128 + 1 * k.val = k.val; omega

/-- The aggregated-feature block likewise. -/
theorem blkN1 (c : Dev nD) (t : Fin cfg1.N) (p : Fin 10000) (k : Fin 128) :
    iblk1 V c 1 t (ix2 p k) = V c main_v35 (ix2 (row1 t p) k) := by
  obtain ⟨-, -, e0, e1, -⟩ := idx_facts1 t
  show V c main_v35 (((cfg1.win 1).blk t).view.emb (ix2 p k)) = V c main_v35 (ix2 (row1 t p) k)
  refine congrArg _ (funext fun a => Fin.ext ?_)
  match a with
  | ⟨0, _⟩ => show win1_1.index t (0 : Fin 2) * 10000 + 1 * p.val = t.val * 10000 + p.val; omega
  | ⟨1, _⟩ => show win1_1.index t (1 : Fin 2) * 128 + 1 * k.val = k.val; omega

/-- The self-weight window is the whole matrix at every point. -/
theorem blkW1 (c : Dev nD) (t : Fin cfg1.N) (k : Fin 128) (q : Fin 128) :
    iblk1 V c 2 t (ix2 k q) = V c main_arg6 (ix2 k q) := by
  obtain ⟨-, -, -, -, e0, e1, -⟩ := idx_facts1 t
  show V c main_arg6 (((cfg1.win 2).blk t).view.emb (ix2 k q)) = V c main_arg6 (ix2 k q)
  refine congrArg _ (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- So is the neighbour-weight window. -/
theorem blkV1 (c : Dev nD) (t : Fin cfg1.N) (k : Fin 128) (q : Fin 128) :
    iblk1 V c 3 t (ix2 k q) = V c main_arg7 (ix2 k q) := by
  obtain ⟨-, -, -, -, -, -, e0, e1, -⟩ := idx_facts1 t
  show V c main_arg7 (((cfg1.win 3).blk t).view.emb (ix2 k q)) = V c main_arg7 (ix2 k q)
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- And the bias row. -/
theorem blkB1 (c : Dev nD) (t : Fin cfg1.N) (q : Fin 128) :
    iblk1 V c 4 t (ix2 (0 : Fin 1) q) = V c main_v36 (ix2 (0 : Fin 1) q) := by
  obtain ⟨-, -, -, -, -, -, -, -, e0, e1, -⟩ := idx_facts1 t
  show V c main_v36 (((cfg1.win 4).blk t).view.emb (ix2 (0 : Fin 1) q)) = V c main_v36 (ix2 (0 : Fin 1) q)
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- Rewriting a block's entry formula over the whole arrays, one point at a time. -/
theorem out1_blocks (c : Dev nD) (t : Fin cfg1.N) (p : Fin 10000) (q : Fin 128) :
    max (pre128 (iblk1 V c 0 t) (iblk1 V c 1 t) (iblk1 V c 2 t) (iblk1 V c 3 t) (iblk1 V c 4 t) p q) 0
      = out1At (V c main_v22) (V c main_v35) (V c main_arg6) (V c main_arg7) (V c main_v36) (row1 t p) q := by
  unfold pre128 out1At wpre128
  refine congrArg (fun z => max z 0) ?_
  refine congrArg₂ (· + ·) (congrArg₂ (· + ·) (Finset.sum_congr rfl fun k _ => ?_) (Finset.sum_congr rfl fun k _ => ?_)) (blkB1 V c t q)
  · rw [blkH1 V c t p k, blkW1 V c t k q]
  · rw [blkN1 V c t p k, blkV1 V c t k q]

/-- What region 1's output array ends holding: entry (r, q) from row r of the features and of the aggregated
    features, column q of the two weight matrices, and entry q of the bias row. -/
def G1 (c : Dev nD) : S100000x128.Idx → EReal :=
  fun i => out1At (V c main_v22) (V c main_v35) (V c main_arg6) (V c main_arg7) (V c main_v36) (i 0) (i 1)

/-- What point t writes back is block t of that array. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S10000x128) hz, View.ld_unit_zero (S := S128x128) hz, View.ld_unit_zero (S := S1x128) hz]
  funext j
  obtain ⟨p, q, rfl⟩ : ∃ (p : Fin 10000) (q : Fin 128), j = ix2 p q := ⟨j 0, j 1, eq_ix2 j⟩
  have hemb : ((cfg1.win 5).blk t).view.emb (ix2 p q) = ix2 (row1 t p) q := by
    obtain ⟨-, -, -, -, -, -, -, -, -, -, e0, e1⟩ := idx_facts1 t
    refine funext fun a => Fin.ext ?_
    match a with
    | ⟨0, _⟩ => show win1_5.index t (0 : Fin 2) * 10000 + 1 * p.val = t.val * 10000 + p.val; omega
    | ⟨1, _⟩ => show win1_5.index t (1 : Fin 2) * 128 + 1 * q.val = q.val; omega
  show k1_pay1 (F := Ideal) (iblk1 V c 0 t) (iblk1 V c 2 t) (iblk1 V c 1 t) (iblk1 V c 3 t) (iblk1 V c 4 t) (ix2 p q)
    = G1 V c (((cfg1.win 5).blk t).view.emb (ix2 p q))
  rw [hemb]
  refine (pay1_apply _ _ _ _ _ p q).trans ?_
  exact out1_blocks V c t p q

/-- An index of the output array is in point t's block iff each coordinate is in the block's range on its axis. -/
theorem mem_blk1 (t : Fin cfg1.N) (i : S100000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole main_v37).slice (win1_5.rect t)).set ↔ _
  rw [View.set_slice_whole, Rect.mem_set_unit]
  exact Iff.rfl

/-- The ten row blocks cover the output array: row r lies in block r / 10000. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ : ∃ t : Fin cfg1.N, t.val = (i 0).val / 10000 :=
    (by decide +kernel : ∀ q : Fin 10, ∃ t : Fin grid1.N, t.val = q.val) ⟨(i 0).val / 10000, by omega⟩
  obtain ⟨-, -, -, -, -, -, -, -, -, -, e0, e1⟩ := idx_facts1 t
  refine ⟨t, flush1_5 t, ?_⟩
  rw [mem_blk1]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 128 ≤ (i 1).val ∧ (i 1).val < win1_5.index t (1 : Fin 2) * 128 + 128; omega

/-- So after the region its output array holds G1. -/
theorem final1 (c : Dev nD) : (dat1 V c).arrAt 5 cfg1.N = G1 V c :=
  (dat1 V c).arrAt_eq_of_cover 5 (G1 V c) (fun t _ => flushed1_eq V c t) cover1

/-! ## Region 2 -/

/-- The grid of region 2 has ten points. -/
theorem lt10_2 : ∀ t : Fin cfg2.N, t.val < 10 := (by decide +kernel : ∀ t : Fin grid2.N, t.val < 10)

/-- Where the windows sit at point t: the two feature windows and the output at row block t, the weights and the
    bias row at their whole arrays. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of the block at point t is row 10000·t + p of the array. -/
def row2 (t : Fin cfg2.N) (p : Fin 10000) : Fin 100000 := ⟨t.val * 10000 + p.val, by have := lt10_2 t; omega⟩

/-- The node-feature block at point t, read at (p, k): the array's row 10000·t + p. -/
theorem blkH2 (c : Dev nD) (t : Fin cfg2.N) (p : Fin 10000) (k : Fin 128) :
    iblk2 V c 0 t (ix2 p k) = V c main_v37 (ix2 (row2 t p) k) := by
  obtain ⟨e0, e1, -⟩ := idx_facts2 t
  show V c main_v37 (((cfg2.win 0).blk t).view.emb (ix2 p k)) = V c main_v37 (ix2 (row2 t p) k)
  refine congrArg _ (funext fun a => Fin.ext ?_)
  match a with
  | ⟨0, _⟩ => show win2_0.index t (0 : Fin 2) * 10000 + 1 * p.val = t.val * 10000 + p.val; omega
  | ⟨1, _⟩ => show win2_0.index t (1 : Fin 2) * 128 + 1 * k.val = k.val; omega

/-- The aggregated-feature block likewise. -/
theorem blkN2 (c : Dev nD) (t : Fin cfg2.N) (p : Fin 10000) (k : Fin 128) :
    iblk2 V c 1 t (ix2 p k) = V c main_v50 (ix2 (row2 t p) k) := by
  obtain ⟨-, -, e0, e1, -⟩ := idx_facts2 t
  show V c main_v50 (((cfg2.win 1).blk t).view.emb (ix2 p k)) = V c main_v50 (ix2 (row2 t p) k)
  refine congrArg _ (funext fun a => Fin.ext ?_)
  match a with
  | ⟨0, _⟩ => show win2_1.index t (0 : Fin 2) * 10000 + 1 * p.val = t.val * 10000 + p.val; omega
  | ⟨1, _⟩ => show win2_1.index t (1 : Fin 2) * 128 + 1 * k.val = k.val; omega

/-- The self-weight window is the whole matrix at every point. -/
theorem blkW2 (c : Dev nD) (t : Fin cfg2.N) (k : Fin 128) (q : Fin 47) :
    iblk2 V c 2 t (ix2 k q) = V c main_arg9 (ix2 k q) := by
  obtain ⟨-, -, -, -, e0, e1, -⟩ := idx_facts2 t
  show V c main_arg9 (((cfg2.win 2).blk t).view.emb (ix2 k q)) = V c main_arg9 (ix2 k q)
  refine congrArg _ (funext fun a => Fin.ext ?_)
  match a with
  | ⟨0, _⟩ => show win2_2.index t (0 : Fin 2) * 128 + 1 * k.val = k.val; omega
  | ⟨1, _⟩ => show win2_2.index t (1 : Fin 2) * 47 + 1 * q.val = q.val; omega

/-- So is the neighbour-weight window. -/
theorem blkV2 (c : Dev nD) (t : Fin cfg2.N) (k : Fin 128) (q : Fin 47) :
    iblk2 V c 3 t (ix2 k q) = V c main_arg10 (ix2 k q) := by
  obtain ⟨-, -, -, -, -, -, e0, e1, -⟩ := idx_facts2 t
  show V c main_arg10 (((cfg2.win 3).blk t).view.emb (ix2 k q)) = V c main_arg10 (ix2 k q)
  refine congrArg _ (funext fun a => Fin.ext ?_)
  match a with
  | ⟨0, _⟩ => show win2_3.index t (0 : Fin 2) * 128 + 1 * k.val = k.val; omega
  | ⟨1, _⟩ => show win2_3.index t (1 : Fin 2) * 47 + 1 * q.val = q.val; omega

/-- And the bias row. -/
theorem blkB2 (c : Dev nD) (t : Fin cfg2.N) (q : Fin 47) :
    iblk2 V c 4 t (ix2 (0 : Fin 1) q) = V c main_v51 (ix2 (0 : Fin 1) q) := by
  obtain ⟨-, -, -, -, -, -, -, -, e0, e1, -⟩ := idx_facts2 t
  show V c main_v51 (((cfg2.win 4).blk t).view.emb (ix2 (0 : Fin 1) q)) = V c main_v51 (ix2 (0 : Fin 1) q)
  refine congrArg _ (funext fun a => Fin.ext ?_)
  match a with
  | ⟨0, _⟩ => show win2_4.index t (0 : Fin 2) * 1 + 1 * 0 = 0; omega
  | ⟨1, _⟩ => show win2_4.index t (1 : Fin 2) * 47 + 1 * q.val = q.val; omega

/-- The classifier head's entry over whole arrays: the log-softmax of row r of the scores. -/
def out2At (h n : S100000x128.Idx → EReal) (w v : S128x47.Idx → EReal) (b : S1x47.Idx → EReal) (r : Fin 100000) (q : Fin 47) : EReal :=
  lsm (fun j => wpre47 h n w v b r j) q

/-- Rewriting a block's entry formula over the whole arrays, one point at a time. -/
theorem out2_blocks (c : Dev nD) (t : Fin cfg2.N) (p : Fin 10000) (q : Fin 47) :
    lsm (fun j => pre47 (iblk2 V c 0 t) (iblk2 V c 1 t) (iblk2 V c 2 t) (iblk2 V c 3 t) (iblk2 V c 4 t) p j) q
      = out2At (V c main_v37) (V c main_v50) (V c main_arg9) (V c main_arg10) (V c main_v51) (row2 t p) q := by
  unfold out2At
  refine congrArg (fun a => lsm a q) (funext fun j => ?_)
  unfold pre47 wpre47
  refine congrArg₂ (· + ·) (congrArg₂ (· + ·) (Finset.sum_congr rfl fun k _ => ?_) (Finset.sum_congr rfl fun k _ => ?_)) (blkB2 V c t j)
  · rw [blkH2 V c t p k, blkW2 V c t k j]
  · rw [blkN2 V c t p k, blkV2 V c t k j]

/-- What region 2's output array ends holding: entry (r, q) from row r of the features and of the aggregated
    features, column q of the two weight matrices, and entry q of the bias row. -/
def G2 (c : Dev nD) : S100000x47.Idx → EReal :=
  fun i => out2At (V c main_v37) (V c main_v50) (V c main_arg9) (V c main_arg10) (V c main_v51) (i 0) (i 1)

/-- What point t writes back is block t of that array. -/
theorem flushed2_eq (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero hz]
  simp only [View.ld_unit_zero (S := S10000x128) hz, View.ld_unit_zero (S := S128x47) hz, View.ld_unit_zero (S := S1x47) hz]
  funext j
  obtain ⟨p, q, rfl⟩ : ∃ (p : Fin 10000) (q : Fin 47), j = ix2 p q := ⟨j 0, j 1, eq_ix2 j⟩
  have hemb : ((cfg2.win 5).blk t).view.emb (ix2 p q) = ix2 (row2 t p) q := by
    obtain ⟨-, -, -, -, -, -, -, -, -, -, e0, e1⟩ := idx_facts2 t
    refine funext fun a => Fin.ext ?_
    match a with
    | ⟨0, _⟩ => show win2_5.index t (0 : Fin 2) * 10000 + 1 * p.val = t.val * 10000 + p.val; omega
    | ⟨1, _⟩ => show win2_5.index t (1 : Fin 2) * 47 + 1 * q.val = q.val; omega
  show k2_pay1 (F := Ideal) (iblk2 V c 0 t) (iblk2 V c 2 t) (iblk2 V c 1 t) (iblk2 V c 3 t) (iblk2 V c 4 t) (ix2 p q)
    = G2 V c (((cfg2.win 5).blk t).view.emb (ix2 p q))
  rw [hemb]
  refine (pay2_apply _ _ _ _ _ p q).trans ?_
  exact out2_blocks V c t p q

/-- An index of the output array is in point t's block iff each coordinate is in the block's range on its axis. -/
theorem mem_blk2 (t : Fin cfg2.N) (i : S100000x47.Idx) :
    i ∈ ((cfg2.win 5).blk t).view.set ↔ ∀ a : Fin 2, win2_5.index t a * S10000x47.size a ≤ (i a).val ∧ (i a).val < win2_5.index t a * S10000x47.size a + S10000x47.size a := by
  show i ∈ ((View.whole main_v52).slice (win2_5.rect t)).set ↔ _
  rw [View.set_slice_whole, Rect.mem_set_unit]
  exact Iff.rfl

/-- The ten row blocks cover the output array: row r lies in block r / 10000. -/
theorem cover2 (i : S100000x47.Idx) : ∃ t : Fin cfg2.N, (cfg2.win 5).flush t = true ∧ i ∈ ((cfg2.win 5).blk t).view.set := by
  have hi0 : (i 0).val < 100000 := (i 0).isLt
  have hi1 : (i 1).val < 47 := (i 1).isLt
  obtain ⟨t, ht⟩ : ∃ t : Fin cfg2.N, t.val = (i 0).val / 10000 :=
    (by decide +kernel : ∀ q : Fin 10, ∃ t : Fin grid2.N, t.val = q.val) ⟨(i 0).val / 10000, by omega⟩
  obtain ⟨-, -, -, -, -, -, -, -, -, -, e0, e1⟩ := idx_facts2 t
  refine ⟨t, flush2_5 t, ?_⟩
  rw [mem_blk2]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 47 ≤ (i 1).val ∧ (i 1).val < win2_5.index t (1 : Fin 2) * 47 + 47; omega

/-- So after the region its output array holds G2. -/
theorem final2 (c : Dev nD) : (dat2 V c).arrAt 5 cfg2.N = G2 V c :=
  (dat2 V c).arrAt_eq_of_cover 5 (G2 V c) (fun t _ => flushed2_eq V c t) cover2

end Cert.Proof.KRegions

end
-- ==== Proof.RefLayers.lean ====
/-
  The reference, layer by layer, read at one entry.  Its hidden layers are relu (h·Ws + n·Wn + b), n the mean of the
  in-neighbours' rows of h, and its head is the log-softmax of the same affine form; at the ideal instance each
  matrix product is the plain sum over the 128 contracted coordinates.  These lemmas read the reference's stages
  at an entry (r, q) in exactly the shape the kernel's regions leave in their output arrays.
-/
import proofs.«156376_j6055903887402_1_alg».proof.Proof.ReferenceReadP

noncomputable section

namespace Cert.Proof.RefLayers

open Cert.ReferenceIdeal Cert.ReferenceIdeal.Gen Cert.ReferenceIdeal.ReadP Idealize.ShloMosaic Idealize.ShloMosaic.ValueIdx
open scoped BigOperators

theorem lidx21 (r : Fin 100000) (q : Fin 128) (k : Fin 128) : lidx_main_v21 (ix2 r q) k = ix2 r k :=
  funext fun a => match a with | ⟨0, _⟩ => rfl | ⟨1, _⟩ => rfl
theorem ridx21 (r : Fin 100000) (q : Fin 128) (k : Fin 128) : ridx_main_v21 (ix2 r q) k = ix2 k q :=
  funext fun a => match a with | ⟨0, _⟩ => rfl | ⟨1, _⟩ => rfl
theorem lidx22 (r : Fin 100000) (q : Fin 128) (k : Fin 128) : lidx_main_v22 (ix2 r q) k = ix2 r k :=
  funext fun a => match a with | ⟨0, _⟩ => rfl | ⟨1, _⟩ => rfl
theorem ridx22 (r : Fin 100000) (q : Fin 128) (k : Fin 128) : ridx_main_v22 (ix2 r q) k = ix2 k q :=
  funext fun a => match a with | ⟨0, _⟩ => rfl | ⟨1, _⟩ => rfl
theorem lidx41 (r : Fin 100000) (q : Fin 128) (k : Fin 128) : lidx_main_v41 (ix2 r q) k = ix2 r k :=
  funext fun a => match a with | ⟨0, _⟩ => rfl | ⟨1, _⟩ => rfl
theorem ridx41 (r : Fin 100000) (q : Fin 128) (k : Fin 128) : ridx_main_v41 (ix2 r q) k = ix2 k q :=
  funext fun a => match a with | ⟨0, _⟩ => rfl | ⟨1, _⟩ => rfl
theorem lidx42 (r : Fin 100000) (q : Fin 128) (k : Fin 128) : lidx_main_v42 (ix2 r q) k = ix2 r k :=
  funext fun a => match a with | ⟨0, _⟩ => rfl | ⟨1, _⟩ => rfl
theorem ridx42 (r : Fin 100000) (q : Fin 128) (k : Fin 128) : ridx_main_v42 (ix2 r q) k = ix2 k q :=
  funext fun a => match a with | ⟨0, _⟩ => rfl | ⟨1, _⟩ => rfl
theorem lidx61 (r : Fin 100000) (q : Fin 47) (k : Fin 128) : lidx_main_v61 (ix2 r q) k = ix2 r k :=
  funext fun a => match a with | ⟨0, _⟩ => rfl | ⟨1, _⟩ => rfl
theorem ridx61 (r : Fin 100000) (q : Fin 47) (k : Fin 128) : ridx_main_v61 (ix2 r q) k = ix2 k q :=
  funext fun a => match a with | ⟨0, _⟩ => rfl | ⟨1, _⟩ => rfl
theorem lidx62 (r : Fin 100000) (q : Fin 47) (k : Fin 128) : lidx_main_v62 (ix2 r q) k = ix2 r k :=
  funext fun a => match a with | ⟨0, _⟩ => rfl | ⟨1, _⟩ => rfl
theorem ridx62 (r : Fin 100000) (q : Fin 47) (k : Fin 128) : ridx_main_v62 (ix2 r q) k = ix2 k q :=
  funext fun a => match a with | ⟨0, _⟩ => rfl | ⟨1, _⟩ => rfl

theorem bidx25 (r : Fin 100000) (q : Fin 128) : idx_main_v24 (idx_main_v25 (ix2 r q)) = ix1 q :=
  funext fun a => match a with | ⟨0, _⟩ => rfl
theorem bidx45 (r : Fin 100000) (q : Fin 128) : idx_main_v44 (idx_main_v45 (ix2 r q)) = ix1 q :=
  funext fun a => match a with | ⟨0, _⟩ => rfl
theorem bidx65 (r : Fin 100000) (q : Fin 47) : idx_main_v64 (idx_main_v65 (ix2 r q)) = ix1 q :=
  funext fun a => match a with | ⟨0, _⟩ => rfl

/-- One entry of a layer's affine form over whole arrays: row r of the features h and of the aggregated features n
    against column q of the two weight matrices, plus the bias entry q. -/
def aff {D : Nat} (h n : (⟨2, ![100000, 128]⟩ : Shape).Idx → EReal) (w v : (⟨2, ![128, D]⟩ : Shape).Idx → EReal) (b : (⟨1, ![D]⟩ : Shape).Idx → EReal)
    (r : Fin 100000) (q : Fin D) : EReal :=
  (∑ k : Fin 128, h (ix2 r k) * w (ix2 k q)) + (∑ k : Fin 128, n (ix2 r k) * v (ix2 k q)) + b (ix1 q)

/-- The first hidden layer at (r, q). -/
theorem h1_apply (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 : (⟨S128, .f32⟩ : BufTy).Contents (Elt Ideal)) (r : Fin 100000) (q : Fin 128) :
    val_main_v27 (F := Ideal) x0 x1 x2 x3 x4 x5 (ix2 r q)
      = max (aff x0 (val_main_v20 (F := Ideal) x0 x1 x2) x3 x4 x5 r q) 0 := by
  rw [val_main_v27_apply, val_main_v26_apply, val_main_v23_apply, val_main_v21_apply, val_main_v22_apply, val_main_v25_apply,
    val_main_v24_apply, val_main_call0_v0_apply, val_main_call0_cst_apply]
  simp only [lidx21, ridx21, lidx22, ridx22, bidx25]
  show max ((_ + _) + _) (Ideal.ofBits .f32 0x00000000#32) = _
  rw [Ideal.ofBits_zero_f32]
  rfl

/-- The second hidden layer at (r, q). -/
theorem h2_apply (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (r : Fin 100000) (q : Fin 128) :
    val_main_v47 (F := Ideal) x0 x1 x2 x3 x4 x5 x6 x7 x8 (ix2 r q)
      = max (aff (val_main_v27 (F := Ideal) x0 x1 x2 x3 x4 x5) (val_main_v40 (F := Ideal) x0 x1 x2 x3 x4 x5) x6 x7 x8 r q) 0 := by
  rw [val_main_v47_apply, val_main_v46_apply, val_main_v43_apply, val_main_v41_apply, val_main_v42_apply, val_main_v45_apply,
    val_main_v44_apply, val_main_call1_v0_apply, val_main_call1_cst_apply]
  simp only [lidx41, ridx41, lidx42, ridx42, bidx45]
  show max ((_ + _) + _) (Ideal.ofBits .f32 0x00000000#32) = _
  rw [Ideal.ofBits_zero_f32]
  rfl

/-- The head's scores at (r, q). -/
theorem scores_apply (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (x9 x10 : (⟨S128x47, .f32⟩ : BufTy).Contents (Elt Ideal)) (x11 : (⟨S47, .f32⟩ : BufTy).Contents (Elt Ideal)) (r : Fin 100000) (q : Fin 47) :
    val_main_v66 (F := Ideal) x0 x1 x2 x3 x4 x5 x6 x7 x8 x9 x10 x11 (ix2 r q)
      = aff (val_main_v47 (F := Ideal) x0 x1 x2 x3 x4 x5 x6 x7 x8) (val_main_v60 (F := Ideal) x0 x1 x2 x3 x4 x5 x6 x7 x8) x9 x10 x11 r q := by
  rw [val_main_v66_apply, val_main_v63_apply, val_main_v61_apply, val_main_v62_apply, val_main_v65_apply, val_main_v64_apply]
  simp only [lidx61, ridx61, lidx62, ridx62, bidx65]
  rfl

/-! ## The head's log-softmax -/

theorem ofBits_ninf : Ideal.ofBits .f32 0xFF800000#32 = (⊥ : EReal) := by simp [Ideal.ofBits, Ideal.ieee]

/-- The row maximum the reference takes (a reduction by max from -∞ over the 47 scores of row r). -/
theorem rowmaxR (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (x9 x10 : (⟨S128x47, .f32⟩ : BufTy).Contents (Elt Ideal)) (x11 : (⟨S47, .f32⟩ : BufTy).Contents (Elt Ideal)) (r : Fin 100000) :
    val_main_call2_v0 (F := Ideal) x0 x1 x2 x3 x4 x5 x6 x7 x8 x9 x10 x11 (ix1 r)
      = (Finset.univ : Finset (Fin 47)).fold max (⊥ : EReal) (fun j => val_main_v66 (F := Ideal) x0 x1 x2 x3 x4 x5 x6 x7 x8 x9 x10 x11 (ix2 r j)) := by
  unfold val_main_call2_v0
  generalize val_main_v66 (F := Ideal) x0 x1 x2 x3 x4 x5 x6 x7 x8 x9 x10 x11 = s
  have hred : S100000x47.Reduces [1] S100000 := by decide
  refine (Host.reduce_eq_fold_single (α := EReal) (a := 1) (FloatOps.maximumf (F := Ideal) (φ := .f32)) s _ reducesTo_S100000x47_S100000_d1 hred h_S_ (ix1 r)).trans ?_
  have hb : (val_main_call2_cst (F := Ideal)) (Shape.Idx.first h_S_) = (⊥ : EReal) := ofBits_ninf
  rw [hb]
  refine congrArg (fun f => Finset.fold max (⊥ : EReal) f (Finset.univ : Finset (Fin 47))) (funext fun j => ?_)
  exact congrArg s (funext fun a => Fin.ext (by match a with | ⟨0, _⟩ => rfl | ⟨1, _⟩ => rfl))

/-- The log-softmax of a row a of 47 scores at entry q, as the reference computes it:
    (a(q) − max(-∞, M)) − log (0 + Σ_k exp (a(k) − max(-∞, M))), M the row's maximum. -/
def rlsm (a : Fin 47 → EReal) (q : Fin 47) : EReal :=
  (a q - max (⊥ : EReal) ((Finset.univ : Finset (Fin 47)).fold max (⊥ : EReal) a))
    - Ideal.log (0 + ∑ k : Fin 47, Ideal.exp (a k - max (⊥ : EReal) ((Finset.univ : Finset (Fin 47)).fold max (⊥ : EReal) a)))

/-- The shifted scores at (r, j). -/
theorem shifted_apply (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (x9 x10 : (⟨S128x47, .f32⟩ : BufTy).Contents (Elt Ideal)) (x11 : (⟨S47, .f32⟩ : BufTy).Contents (Elt Ideal)) (r : Fin 100000) (j : Fin 47) :
    val_main_call2_v5 (F := Ideal) x0 x1 x2 x3 x4 x5 x6 x7 x8 x9 x10 x11 (ix2 r j)
      = val_main_v66 (F := Ideal) x0 x1 x2 x3 x4 x5 x6 x7 x8 x9 x10 x11 (ix2 r j)
        - max (⊥ : EReal) ((Finset.univ : Finset (Fin 47)).fold max (⊥ : EReal) (fun j => val_main_v66 (F := Ideal) x0 x1 x2 x3 x4 x5 x6 x7 x8 x9 x10 x11 (ix2 r j))) := by
  rw [val_main_call2_v5_apply, val_main_call2_v4_apply, val_main_call2_v3_apply, val_main_call2_v2_apply, val_main_call2_v1_apply,
    val_main_call2_cst_0_apply]
  rw [show idx_main_call2_v3 (idx_main_call2_v4 (ix2 r j)) = ix1 r from funext fun a => match a with | ⟨0, _⟩ => rfl]
  rw [rowmaxR]
  show _ - max (Ideal.ofBits .f32 0xFF800000#32) _ = _
  rw [ofBits_ninf]

/-- The reference's result at (r, q): the log-softmax of row r of the scores. -/
theorem out_apply (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (x9 x10 : (⟨S128x47, .f32⟩ : BufTy).Contents (Elt Ideal)) (x11 : (⟨S47, .f32⟩ : BufTy).Contents (Elt Ideal)) (r : Fin 100000) (q : Fin 47) :
    val_main_v67 (F := Ideal) x0 x1 x2 x3 x4 x5 x6 x7 x8 x9 x10 x11 (ix2 r q) = rlsm (fun j => val_main_v66 (F := Ideal) x0 x1 x2 x3 x4 x5 x6 x7 x8 x9 x10 x11 (ix2 r j)) q := by
  rw [val_main_v67_apply, val_main_call2_v10_apply, val_main_call2_v9_apply, val_main_call2_v8_apply, val_main_call2_v7_apply,
    val_main_call2_cst_1_apply]
  rw [show idx_main_call2_v8 (idx_main_call2_v10 (ix2 r q)) = ix1 r from funext fun a => match a with | ⟨0, _⟩ => rfl]
  rw [shifted_apply]
  unfold rlsm
  show _ - Ideal.log (Ideal.ofBits .f32 0x00000000#32 + _) = _
  rw [Ideal.ofBits_zero_f32]
  refine congrArg (fun z => _ - Ideal.log (0 + z)) (Finset.sum_congr rfl fun k _ => ?_)
  rw [val_main_call2_v6_apply]
  rw [show idx_main_call2_v7 (ix1 r) k = ix2 r k from funext fun a => match a with | ⟨0, _⟩ => rfl | ⟨1, _⟩ => rfl]
  rw [shifted_apply]
  rfl

end Cert.Proof.RefLayers

end
-- ==== Proof.KHost0.lean ====
/-
  The first stretch of host operations and the first grid kernel of the idealized kernel program, read against the
  reference's stage functions.  Before the first kernel the host computes, from the edge lists, the reciprocal
  in-degrees and the mean of the in-neighbours' feature rows — the same operations the reference applies — and
  recasts the bias as a row; the kernel then leaves relu (x·Ws0 + mean·Wn0 + b0) in its output array, which is the
  reference's first hidden layer, entry by entry.
-/
import proofs.«156376_j6055903887402_1_alg».proof.Proof.KRegions
import proofs.«156376_j6055903887402_1_alg».proof.Proof.RefLayers
import Idealize.ShloMosaic.Lib.StableHlo.Run

set_option maxRecDepth 16384

noncomputable section

namespace Cert.Proof.KHost0

open Cert.KernelIdeal Cert.KernelIdeal.Gen Cert.KernelIdeal.GenP Cert.Proof.KRegions Cert.Proof.KPayload Cert.Proof.RefLayers
open Idealize.ShloMosaic Idealize.ShloMosaic.TcCoe Idealize.ShloMosaic.ValueIdx Idealize.SL.Sem Idealize.ShloMosaic.StableHlo
open scoped BigOperators

variable (m : (ℓ : Loc nD τ sig) → Buf (Elt Ideal) ℓ) (ρ : Dev nD → PrngReg)

/-! ## The arguments and the host results at the first kernel's entry -/

theorem W1arg_0 (c : Dev nD) : W1 m ρ c (Proc.devRef .tc main_arg0) = (m ((c : Thread nD τ).loc main_arg0)) := by
  show StableHlo.after hostOps0 (W0 m ρ c) _ = _
  simp only [hostOps0]
  after_results_simp
  first | done | rfl
theorem W1arg_1 (c : Dev nD) : W1 m ρ c (Proc.devRef .tc main_arg1) = (m ((c : Thread nD τ).loc main_arg1)) := by
  show StableHlo.after hostOps0 (W0 m ρ c) _ = _
  simp only [hostOps0]
  after_results_simp
  first | done | rfl
theorem W1arg_2 (c : Dev nD) : W1 m ρ c (Proc.devRef .tc main_arg2) = (m ((c : Thread nD τ).loc main_arg2)) := by
  show StableHlo.after hostOps0 (W0 m ρ c) _ = _
  simp only [hostOps0]
  after_results_simp
  first | done | rfl
theorem W1arg_3 (c : Dev nD) : W1 m ρ c (Proc.devRef .tc main_arg3) = (m ((c : Thread nD τ).loc main_arg3)) := by
  show StableHlo.after hostOps0 (W0 m ρ c) _ = _
  simp only [hostOps0]
  after_results_simp
  first | done | rfl
theorem W1arg_4 (c : Dev nD) : W1 m ρ c (Proc.devRef .tc main_arg4) = (m ((c : Thread nD τ).loc main_arg4)) := by
  show StableHlo.after hostOps0 (W0 m ρ c) _ = _
  simp only [hostOps0]
  after_results_simp
  first | done | rfl
theorem W1arg_5 (c : Dev nD) : W1 m ρ c (Proc.devRef .tc main_arg5) = (m ((c : Thread nD τ).loc main_arg5)) := by
  show StableHlo.after hostOps0 (W0 m ρ c) _ = _
  simp only [hostOps0]
  after_results_simp
  first | done | rfl
theorem W1arg_6 (c : Dev nD) : W1 m ρ c (Proc.devRef .tc main_arg6) = (m ((c : Thread nD τ).loc main_arg6)) := by
  show StableHlo.after hostOps0 (W0 m ρ c) _ = _
  simp only [hostOps0]
  after_results_simp
  first | done | rfl
theorem W1arg_7 (c : Dev nD) : W1 m ρ c (Proc.devRef .tc main_arg7) = (m ((c : Thread nD τ).loc main_arg7)) := by
  show StableHlo.after hostOps0 (W0 m ρ c) _ = _
  simp only [hostOps0]
  after_results_simp
  first | done | rfl
theorem W1arg_8 (c : Dev nD) : W1 m ρ c (Proc.devRef .tc main_arg8) = (m ((c : Thread nD τ).loc main_arg8)) := by
  show StableHlo.after hostOps0 (W0 m ρ c) _ = _
  simp only [hostOps0]
  after_results_simp
  first | done | rfl
theorem W1arg_9 (c : Dev nD) : W1 m ρ c (Proc.devRef .tc main_arg9) = (m ((c : Thread nD τ).loc main_arg9)) := by
  show StableHlo.after hostOps0 (W0 m ρ c) _ = _
  simp only [hostOps0]
  after_results_simp
  first | done | rfl
theorem W1arg_10 (c : Dev nD) : W1 m ρ c (Proc.devRef .tc main_arg10) = (m ((c : Thread nD τ).loc main_arg10)) := by
  show StableHlo.after hostOps0 (W0 m ρ c) _ = _
  simp only [hostOps0]
  after_results_simp
  first | done | rfl
theorem W1arg_11 (c : Dev nD) : W1 m ρ c (Proc.devRef .tc main_arg11) = (m ((c : Thread nD τ).loc main_arg11)) := by
  show StableHlo.after hostOps0 (W0 m ρ c) _ = _
  simp only [hostOps0]
  after_results_simp
  first | done | rfl

set_option maxHeartbeats 1000000 in
/-- The reciprocal in-degrees: the reference's stage of the destination list. -/
theorem W1_v7 (c : Dev nD) : W1 m ρ c (Proc.devRef .tc main_v7) = Cert.ReferenceIdeal.ReadP.val_main_v7 (F := Ideal) (m ((c : Thread nD τ).loc main_arg2)) := by
  show StableHlo.after hostOps0 (W0 m ρ c) _ = _
  simp only [hostOps0]
  after_results_simp
  simp only [Cert.ReferenceIdeal.ReadP.val_main_v27, Cert.ReferenceIdeal.ReadP.val_main_v26, Cert.ReferenceIdeal.ReadP.val_main_call0_v0, Cert.ReferenceIdeal.ReadP.val_main_call0_cst, Cert.ReferenceIdeal.ReadP.val_main_v25, Cert.ReferenceIdeal.ReadP.val_main_v24, Cert.ReferenceIdeal.ReadP.val_main_v23, Cert.ReferenceIdeal.ReadP.val_main_v22, Cert.ReferenceIdeal.ReadP.val_main_v21, Cert.ReferenceIdeal.ReadP.val_main_v20, Cert.ReferenceIdeal.ReadP.val_main_v19, Cert.ReferenceIdeal.ReadP.val_main_v18, Cert.ReferenceIdeal.ReadP.val_main_v17, Cert.ReferenceIdeal.ReadP.val_main_v16, Cert.ReferenceIdeal.ReadP.val_main_v15, Cert.ReferenceIdeal.ReadP.val_main_cst_4, Cert.ReferenceIdeal.ReadP.val_main_v14, Cert.ReferenceIdeal.ReadP.val_main_v13, Cert.ReferenceIdeal.ReadP.val_main_v12, Cert.ReferenceIdeal.ReadP.val_main_v11, Cert.ReferenceIdeal.ReadP.val_main_v10, Cert.ReferenceIdeal.ReadP.val_main_c_3, Cert.ReferenceIdeal.ReadP.val_main_v9, Cert.ReferenceIdeal.ReadP.val_main_v8, Cert.ReferenceIdeal.ReadP.val_main_c, Cert.ReferenceIdeal.ReadP.val_main_v7, Cert.ReferenceIdeal.ReadP.val_main_v6, Cert.ReferenceIdeal.ReadP.val_main_cst_2, Cert.ReferenceIdeal.ReadP.val_main_v5, Cert.ReferenceIdeal.ReadP.val_main_v4, Cert.ReferenceIdeal.ReadP.val_main_cst_1, Cert.ReferenceIdeal.ReadP.val_main_v3, Cert.ReferenceIdeal.ReadP.val_main_v2, Cert.ReferenceIdeal.ReadP.val_main_v1, Cert.ReferenceIdeal.ReadP.val_main_cst_0, Cert.ReferenceIdeal.ReadP.val_main_v0, Cert.ReferenceIdeal.ReadP.val_main_cst]
  first | done | rfl

set_option maxHeartbeats 1000000 in
/-- The mean of the in-neighbours' rows of the input features: the reference's stage. -/
theorem W1_v20 (c : Dev nD) : W1 m ρ c (Proc.devRef .tc main_v20) = Cert.ReferenceIdeal.ReadP.val_main_v20 (F := Ideal) (m ((c : Thread nD τ).loc main_arg0)) (m ((c : Thread nD τ).loc main_arg1)) (m ((c : Thread nD τ).loc main_arg2)) := by
  show StableHlo.after hostOps0 (W0 m ρ c) _ = _
  simp only [hostOps0]
  after_results_simp
  simp only [Cert.ReferenceIdeal.ReadP.val_main_v27, Cert.ReferenceIdeal.ReadP.val_main_v26, Cert.ReferenceIdeal.ReadP.val_main_call0_v0, Cert.ReferenceIdeal.ReadP.val_main_call0_cst, Cert.ReferenceIdeal.ReadP.val_main_v25, Cert.ReferenceIdeal.ReadP.val_main_v24, Cert.ReferenceIdeal.ReadP.val_main_v23, Cert.ReferenceIdeal.ReadP.val_main_v22, Cert.ReferenceIdeal.ReadP.val_main_v21, Cert.ReferenceIdeal.ReadP.val_main_v20, Cert.ReferenceIdeal.ReadP.val_main_v19, Cert.ReferenceIdeal.ReadP.val_main_v18, Cert.ReferenceIdeal.ReadP.val_main_v17, Cert.ReferenceIdeal.ReadP.val_main_v16, Cert.ReferenceIdeal.ReadP.val_main_v15, Cert.ReferenceIdeal.ReadP.val_main_cst_4, Cert.ReferenceIdeal.ReadP.val_main_v14, Cert.ReferenceIdeal.ReadP.val_main_v13, Cert.ReferenceIdeal.ReadP.val_main_v12, Cert.ReferenceIdeal.ReadP.val_main_v11, Cert.ReferenceIdeal.ReadP.val_main_v10, Cert.ReferenceIdeal.ReadP.val_main_c_3, Cert.ReferenceIdeal.ReadP.val_main_v9, Cert.ReferenceIdeal.ReadP.val_main_v8, Cert.ReferenceIdeal.ReadP.val_main_c, Cert.ReferenceIdeal.ReadP.val_main_v7, Cert.ReferenceIdeal.ReadP.val_main_v6, Cert.ReferenceIdeal.ReadP.val_main_cst_2, Cert.ReferenceIdeal.ReadP.val_main_v5, Cert.ReferenceIdeal.ReadP.val_main_v4, Cert.ReferenceIdeal.ReadP.val_main_cst_1, Cert.ReferenceIdeal.ReadP.val_main_v3, Cert.ReferenceIdeal.ReadP.val_main_v2, Cert.ReferenceIdeal.ReadP.val_main_v1, Cert.ReferenceIdeal.ReadP.val_main_cst_0, Cert.ReferenceIdeal.ReadP.val_main_v0, Cert.ReferenceIdeal.ReadP.val_main_cst]
  first | done | rfl

/-- The bias recast as a row reads the bias. -/
theorem W1_v21 (c : Dev nD) (q : Fin 128) : W1 m ρ c (Proc.devRef .tc main_v21) (ix2 (0 : Fin 1) q) = (m ((c : Thread nD τ).loc main_arg5)) (ix1 q) := by
  show StableHlo.after hostOps0 (W0 m ρ c) _ _ = _
  simp only [hostOps0]
  after_results_simp
  refine (shapeCast_apply _ shapeCasts_S128_S1x128 (ix2 (0 : Fin 1) q) (ix1 q) ?_).trans rfl
  rw [Shape.rowMajor_val_one, Shape.rowMajor_val_two]
  show q.val = 0 * 128 + q.val
  omega

/-! ## The first kernel's output array -/

/-- After the first kernel its output array holds the reference's first hidden layer. -/
theorem layer1 (c : Dev nD) : (dat0 (V1 m ρ) c).arrAt 5 cfg0.N = Cert.ReferenceIdeal.ReadP.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [final0]
  funext i
  obtain ⟨r, q, rfl⟩ : ∃ (r : Fin 100000) (q : Fin 128), i = ix2 r q := ⟨i 0, i 1, eq_ix2 i⟩
  rw [h1_apply]
  show out0At (W1 m ρ c (Proc.devRef .tc main_arg0)) (W1 m ρ c (Proc.devRef .tc main_v20)) (W1 m ρ c (Proc.devRef .tc main_arg3))
    (W1 m ρ c (Proc.devRef .tc main_arg4)) (W1 m ρ c (Proc.devRef .tc main_v21)) r q = _
  unfold out0At wpre128 aff
  rw [W1arg_0, W1arg_3, W1arg_4, W1_v20, W1_v21]

end Cert.Proof.KHost0

end
-- ==== Proof.KHost1.lean ====
/-
  The second stretch of host operations and the second grid kernel.  After the first kernel the arguments and the
  reciprocal in-degrees are where they were and its output array holds the first hidden layer; the host then
  gathers and averages the in-neighbours' rows of that layer exactly as the reference does, and the second kernel
  leaves relu (h1·Ws1 + mean·Wn1 + b1): the reference's second hidden layer.
-/
import proofs.«156376_j6055903887402_1_alg».proof.Proof.KHost0
import Idealize.ShloMosaic.Lib.StableHlo.Run

set_option maxRecDepth 16384

noncomputable section

namespace Cert.Proof.KHost1

open Cert.Proof.KHost0 Cert.KernelIdeal Cert.KernelIdeal.Gen Cert.KernelIdeal.GenP Cert.Proof.KRegions Cert.Proof.KPayload Cert.Proof.RefLayers
open Idealize.ShloMosaic Idealize.ShloMosaic.TcCoe Idealize.ShloMosaic.ValueIdx Idealize.SL.Sem Idealize.ShloMosaic.StableHlo
open scoped BigOperators

variable (m : (ℓ : Loc nD τ sig) → Buf (Elt Ideal) ℓ) (ρ : Dev nD → PrngReg)

/-! ## After the first kernel -/

theorem W2arg_1 (c : Dev nD) : W2 m ρ c (Proc.devRef .tc main_arg1) = (m ((c : Thread nD τ).loc main_arg1)) :=
  (W2_of_ne m ρ c main_arg1 (by decide)).trans (W1arg_1 m ρ c)
theorem W2arg_2 (c : Dev nD) : W2 m ρ c (Proc.devRef .tc main_arg2) = (m ((c : Thread nD τ).loc main_arg2)) :=
  (W2_of_ne m ρ c main_arg2 (by decide)).trans (W1arg_2 m ρ c)
theorem W2arg_6 (c : Dev nD) : W2 m ρ c (Proc.devRef .tc main_arg6) = (m ((c : Thread nD τ).loc main_arg6)) :=
  (W2_of_ne m ρ c main_arg6 (by decide)).trans (W1arg_6 m ρ c)
theorem W2arg_7 (c : Dev nD) : W2 m ρ c (Proc.devRef .tc main_arg7) = (m ((c : Thread nD τ).loc main_arg7)) :=
  (W2_of_ne m ρ c main_arg7 (by decide)).trans (W1arg_7 m ρ c)
theorem W2arg_8 (c : Dev nD) : W2 m ρ c (Proc.devRef .tc main_arg8) = (m ((c : Thread nD τ).loc main_arg8)) :=
  (W2_of_ne m ρ c main_arg8 (by decide)).trans (W1arg_8 m ρ c)
theorem W2arg_9 (c : Dev nD) : W2 m ρ c (Proc.devRef .tc main_arg9) = (m ((c : Thread nD τ).loc main_arg9)) :=
  (W2_of_ne m ρ c main_arg9 (by decide)).trans (W1arg_9 m ρ c)
theorem W2arg_10 (c : Dev nD) : W2 m ρ c (Proc.devRef .tc main_arg10) = (m ((c : Thread nD τ).loc main_arg10)) :=
  (W2_of_ne m ρ c main_arg10 (by decide)).trans (W1arg_10 m ρ c)
theorem W2arg_11 (c : Dev nD) : W2 m ρ c (Proc.devRef .tc main_arg11) = (m ((c : Thread nD τ).loc main_arg11)) :=
  (W2_of_ne m ρ c main_arg11 (by decide)).trans (W1arg_11 m ρ c)
theorem W2_v7 (c : Dev nD) : W2 m ρ c (Proc.devRef .tc main_v7) = Cert.ReferenceIdeal.ReadP.val_main_v7 (F := Ideal) (m ((c : Thread nD τ).loc main_arg2)) :=
  (W2_of_ne m ρ c main_v7 (by decide)).trans (W1_v7 m ρ c)
/-- The first kernel's output array is the first hidden layer. -/
theorem W2_v22 (c : Dev nD) : W2 m ρ c (Proc.devRef .tc main_v22) = Cert.ReferenceIdeal.ReadP.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W2_arr m ρ c 5).trans (layer1 m ρ c)

/-! ## At the second kernel's entry -/

theorem W3arg_1 (c : Dev nD) : W3 m ρ c (Proc.devRef .tc main_arg1) = (m ((c : Thread nD τ).loc main_arg1)) := by
  show StableHlo.after hostOps1 (W2 m ρ c) _ = _
  simp only [hostOps1]
  after_results_simp
  exact W2arg_1 m ρ c
theorem W3arg_2 (c : Dev nD) : W3 m ρ c (Proc.devRef .tc main_arg2) = (m ((c : Thread nD τ).loc main_arg2)) := by
  show StableHlo.after hostOps1 (W2 m ρ c) _ = _
  simp only [hostOps1]
  after_results_simp
  exact W2arg_2 m ρ c
theorem W3arg_6 (c : Dev nD) : W3 m ρ c (Proc.devRef .tc main_arg6) = (m ((c : Thread nD τ).loc main_arg6)) := by
  show StableHlo.after hostOps1 (W2 m ρ c) _ = _
  simp only [hostOps1]
  after_results_simp
  exact W2arg_6 m ρ c
theorem W3arg_7 (c : Dev nD) : W3 m ρ c (Proc.devRef .tc main_arg7) = (m ((c : Thread nD τ).loc main_arg7)) := by
  show StableHlo.after hostOps1 (W2 m ρ c) _ = _
  simp only [hostOps1]
  after_results_simp
  exact W2arg_7 m ρ c
theorem W3arg_8 (c : Dev nD) : W3 m ρ c (Proc.devRef .tc main_arg8) = (m ((c : Thread nD τ).loc main_arg8)) := by
  show StableHlo.after hostOps1 (W2 m ρ c) _ = _
  simp only [hostOps1]
  after_results_simp
  exact W2arg_8 m ρ c
theorem W3arg_9 (c : Dev nD) : W3 m ρ c (Proc.devRef .tc main_arg9) = (m ((c : Thread nD τ).loc main_arg9)) := by
  show StableHlo.after hostOps1 (W2 m ρ c) _ = _
  simp only [hostOps1]
  after_results_simp
  exact W2arg_9 m ρ c
theorem W3arg_10 (c : Dev nD) : W3 m ρ c (Proc.devRef .tc main_arg10) = (m ((c : Thread nD τ).loc main_arg10)) := by
  show StableHlo.after hostOps1 (W2 m ρ c) _ = _
  simp only [hostOps1]
  after_results_simp
  exact W2arg_10 m ρ c
theorem W3arg_11 (c : Dev nD) : W3 m ρ c (Proc.devRef .tc main_arg11) = (m ((c : Thread nD τ).loc main_arg11)) := by
  show StableHlo.after hostOps1 (W2 m ρ c) _ = _
  simp only [hostOps1]
  after_results_simp
  exact W2arg_11 m ρ c
theorem W3_v7 (c : Dev nD) : W3 m ρ c (Proc.devRef .tc main_v7) = Cert.ReferenceIdeal.ReadP.val_main_v7 (F := Ideal) (m ((c : Thread nD τ).loc main_arg2)) := by
  show StableHlo.after hostOps1 (W2 m ρ c) _ = _
  simp only [hostOps1]
  after_results_simp
  exact W2_v7 m ρ c
theorem W3_v22 (c : Dev nD) : W3 m ρ c (Proc.devRef .tc main_v22) = Cert.ReferenceIdeal.ReadP.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps1 (W2 m ρ c) _ = _
  simp only [hostOps1]
  after_results_simp
  exact W2_v22 m ρ c

set_option maxHeartbeats 1000000 in
/-- The mean of the in-neighbours' rows of the first hidden layer: the reference's stage. -/
theorem W3_v35 (c : Dev nD) : W3 m ρ c (Proc.devRef .tc main_v35) = Cert.ReferenceIdeal.ReadP.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps1 (W2 m ρ c) _ = _
  simp only [hostOps1]
  after_results_simp
  rw [W2arg_1, W2arg_2, W2_v22, W2_v7]
  simp only [Cert.ReferenceIdeal.ReadP.val_main_v40, Cert.ReferenceIdeal.ReadP.val_main_v39, Cert.ReferenceIdeal.ReadP.val_main_v38, Cert.ReferenceIdeal.ReadP.val_main_v37, Cert.ReferenceIdeal.ReadP.val_main_v36, Cert.ReferenceIdeal.ReadP.val_main_v35, Cert.ReferenceIdeal.ReadP.val_main_cst_7, Cert.ReferenceIdeal.ReadP.val_main_v34, Cert.ReferenceIdeal.ReadP.val_main_v33, Cert.ReferenceIdeal.ReadP.val_main_v32, Cert.ReferenceIdeal.ReadP.val_main_v31, Cert.ReferenceIdeal.ReadP.val_main_v30, Cert.ReferenceIdeal.ReadP.val_main_c_6, Cert.ReferenceIdeal.ReadP.val_main_v29, Cert.ReferenceIdeal.ReadP.val_main_v28, Cert.ReferenceIdeal.ReadP.val_main_c_5]
  first | done | rfl

/-- The bias recast as a row reads the bias. -/
theorem W3_v36 (c : Dev nD) (q : Fin 128) : W3 m ρ c (Proc.devRef .tc main_v36) (ix2 (0 : Fin 1) q) = (m ((c : Thread nD τ).loc main_arg8)) (ix1 q) := by
  show StableHlo.after hostOps1 (W2 m ρ c) _ _ = _
  simp only [hostOps1]
  after_results_simp
  rw [W2arg_8]
  refine (shapeCast_apply _ shapeCasts_S128_S1x128 (ix2 (0 : Fin 1) q) (ix1 q) ?_).trans rfl
  rw [Shape.rowMajor_val_one, Shape.rowMajor_val_two]
  show q.val = 0 * 128 + q.val
  omega

/-! ## The second kernel's output array -/

/-- After the second kernel its output array holds the reference's second hidden layer. -/
theorem layer2 (c : Dev nD) : (dat1 (V3 m ρ) c).arrAt 5 cfg1.N = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [final1]
  funext i
  obtain ⟨r, q, rfl⟩ : ∃ (r : Fin 100000) (q : Fin 128), i = ix2 r q := ⟨i 0, i 1, eq_ix2 i⟩
  rw [h2_apply]
  show out1At (W3 m ρ c (Proc.devRef .tc main_v22)) (W3 m ρ c (Proc.devRef .tc main_v35)) (W3 m ρ c (Proc.devRef .tc main_arg6))
    (W3 m ρ c (Proc.devRef .tc main_arg7)) (W3 m ρ c (Proc.devRef .tc main_v36)) r q = _
  unfold out1At wpre128 aff
  rw [W3_v22, W3arg_6, W3arg_7, W3_v35, W3_v36]

end Cert.Proof.KHost1

end
-- ==== Proof.KHost2.lean ====
/-
  The third stretch of host operations and the third grid kernel.  The host averages the in-neighbours' rows of the
  second hidden layer as the reference does; the third kernel computes the head's scores h2·Ws2 + mean·Wn2 + b2 and
  leaves, in each row, the scores minus (row maximum + log of the sum of the exponentials of the shifted scores).
  So the program's result array is, row by row, that log-softmax of the reference's scores.
-/
import proofs.«156376_j6055903887402_1_alg».proof.Proof.KHost1
import Idealize.ShloMosaic.Lib.StableHlo.Run

set_option maxRecDepth 16384

noncomputable section

namespace Cert.Proof.KHost2

open Cert.Proof.KHost0 Cert.Proof.KHost1 Cert.KernelIdeal Cert.KernelIdeal.Gen Cert.KernelIdeal.GenP Cert.Proof.KRegions Cert.Proof.KPayload Cert.Proof.RefLayers
open Idealize.ShloMosaic Idealize.ShloMosaic.TcCoe Idealize.ShloMosaic.ValueIdx Idealize.SL.Sem Idealize.ShloMosaic.StableHlo
open scoped BigOperators

variable (m : (ℓ : Loc nD τ sig) → Buf (Elt Ideal) ℓ) (ρ : Dev nD → PrngReg)

/-! ## After the second kernel -/

theorem W4arg_1 (c : Dev nD) : W4 m ρ c (Proc.devRef .tc main_arg1) = (m ((c : Thread nD τ).loc main_arg1)) :=
  (W4_of_ne m ρ c main_arg1 (by decide)).trans (W3arg_1 m ρ c)
theorem W4arg_2 (c : Dev nD) : W4 m ρ c (Proc.devRef .tc main_arg2) = (m ((c : Thread nD τ).loc main_arg2)) :=
  (W4_of_ne m ρ c main_arg2 (by decide)).trans (W3arg_2 m ρ c)
theorem W4arg_9 (c : Dev nD) : W4 m ρ c (Proc.devRef .tc main_arg9) = (m ((c : Thread nD τ).loc main_arg9)) :=
  (W4_of_ne m ρ c main_arg9 (by decide)).trans (W3arg_9 m ρ c)
theorem W4arg_10 (c : Dev nD) : W4 m ρ c (Proc.devRef .tc main_arg10) = (m ((c : Thread nD τ).loc main_arg10)) :=
  (W4_of_ne m ρ c main_arg10 (by decide)).trans (W3arg_10 m ρ c)
theorem W4arg_11 (c : Dev nD) : W4 m ρ c (Proc.devRef .tc main_arg11) = (m ((c : Thread nD τ).loc main_arg11)) :=
  (W4_of_ne m ρ c main_arg11 (by decide)).trans (W3arg_11 m ρ c)
theorem W4_v7 (c : Dev nD) : W4 m ρ c (Proc.devRef .tc main_v7) = Cert.ReferenceIdeal.ReadP.val_main_v7 (F := Ideal) (m ((c : Thread nD τ).loc main_arg2)) :=
  (W4_of_ne m ρ c main_v7 (by decide)).trans (W3_v7 m ρ c)
/-- The second kernel's output array is the second hidden layer. -/
theorem W4_v37 (c : Dev nD) : W4 m ρ c (Proc.devRef .tc main_v37) = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W4_arr m ρ c 5).trans (layer2 m ρ c)

/-! ## At the third kernel's entry -/

theorem W5arg_9 (c : Dev nD) : W5 m ρ c (Proc.devRef .tc main_arg9) = (m ((c : Thread nD τ).loc main_arg9)) := by
  show StableHlo.after hostOps2 (W4 m ρ c) _ = _
  simp only [hostOps2]
  after_results_simp
  exact W4arg_9 m ρ c
theorem W5arg_10 (c : Dev nD) : W5 m ρ c (Proc.devRef .tc main_arg10) = (m ((c : Thread nD τ).loc main_arg10)) := by
  show StableHlo.after hostOps2 (W4 m ρ c) _ = _
  simp only [hostOps2]
  after_results_simp
  exact W4arg_10 m ρ c
theorem W5_v37 (c : Dev nD) : W5 m ρ c (Proc.devRef .tc main_v37) = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps2 (W4 m ρ c) _ = _
  simp only [hostOps2]
  after_results_simp
  exact W4_v37 m ρ c

set_option maxHeartbeats 1000000 in
/-- The mean of the in-neighbours' rows of the second hidden layer: the reference's stage. -/
theorem W5_v50 (c : Dev nD) : W5 m ρ c (Proc.devRef .tc main_v50) = Cert.ReferenceIdeal.ReadP.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps2 (W4 m ρ c) _ = _
  simp only [hostOps2]
  after_results_simp
  rw [W4arg_1, W4arg_2, W4_v37, W4_v7]
  simp only [Cert.ReferenceIdeal.ReadP.val_main_v60, Cert.ReferenceIdeal.ReadP.val_main_v59, Cert.ReferenceIdeal.ReadP.val_main_v58, Cert.ReferenceIdeal.ReadP.val_main_v57, Cert.ReferenceIdeal.ReadP.val_main_v56, Cert.ReferenceIdeal.ReadP.val_main_v55, Cert.ReferenceIdeal.ReadP.val_main_cst_10, Cert.ReferenceIdeal.ReadP.val_main_v54, Cert.ReferenceIdeal.ReadP.val_main_v53, Cert.ReferenceIdeal.ReadP.val_main_v52, Cert.ReferenceIdeal.ReadP.val_main_v51, Cert.ReferenceIdeal.ReadP.val_main_v50, Cert.ReferenceIdeal.ReadP.val_main_c_9, Cert.ReferenceIdeal.ReadP.val_main_v49, Cert.ReferenceIdeal.ReadP.val_main_v48, Cert.ReferenceIdeal.ReadP.val_main_c_8]
  first | done | rfl

/-- The bias recast as a row reads the bias. -/
theorem W5_v51 (c : Dev nD) (q : Fin 47) : W5 m ρ c (Proc.devRef .tc main_v51) (ix2 (0 : Fin 1) q) = (m ((c : Thread nD τ).loc main_arg11)) (ix1 q) := by
  show StableHlo.after hostOps2 (W4 m ρ c) _ _ = _
  simp only [hostOps2]
  after_results_simp
  rw [W4arg_11]
  refine (shapeCast_apply _ shapeCasts_S47_S1x47 (ix2 (0 : Fin 1) q) (ix1 q) ?_).trans rfl
  rw [Shape.rowMajor_val_one, Shape.rowMajor_val_two]
  show q.val = 0 * 47 + q.val
  omega

/-! ## The program's result -/

/-- The result buffer at the end of the program: row r, column q holds the kernel's log-softmax of row r of the
    reference's scores. -/
theorem result (c : Dev nD) : W6 m ρ c (Proc.devRef .tc main_v52)
    = fun i => lsm (fun j => Cert.ReferenceIdeal.ReadP.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix2 (i 0) j)) (i 1) := by
  refine (W6_arr m ρ c 5).trans ?_
  rw [final2]
  funext i
  obtain ⟨r, q, rfl⟩ : ∃ (r : Fin 100000) (q : Fin 47), i = ix2 r q := ⟨i 0, i 1, eq_ix2 i⟩
  show out2At (W5 m ρ c (Proc.devRef .tc main_v37)) (W5 m ρ c (Proc.devRef .tc main_v50)) (W5 m ρ c (Proc.devRef .tc main_arg9))
    (W5 m ρ c (Proc.devRef .tc main_arg10)) (W5 m ρ c (Proc.devRef .tc main_v51)) r q
      = lsm (fun j => Cert.ReferenceIdeal.ReadP.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix2 r j)) q
  unfold out2At
  refine congrArg (fun a => lsm a q) (funext fun j => ?_)
  rw [scores_apply]
  unfold wpre47 aff
  rw [W5_v37, W5arg_9, W5arg_10, W5_v50, W5_v51]

end Cert.Proof.KHost2

end
-- ==== Proof.RefSplit.lean ====
/-
  The reference is a straight line of 99 host operations.  Its fold is read in four stretches — the first layer
  (37 operations), the second (25), the head's scores (22) and the log-softmax (15): the fold over a concatenation
  is the fold over the later list from the fold over the earlier one.  Here: that law, the four stretches, and the
  buffers each of the first two leaves untouched.
-/
import proofs.«156376_j6055903887402_1_alg».proof.Proof.ReferenceReadP

set_option maxRecDepth 65536

noncomputable section

namespace Cert.Proof.RefSplit

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The fold over a concatenation is the fold over the second list from the fold over the first. -/
theorem after_append (l1 l2 : List (HloOp τ sig (Elt F))) (V : Valuation τ sig (Elt F)) : after (l1 ++ l2) V = after l2 (after l1 V) := by
  induction l1 generalizing V with
  | nil => rfl
  | cons op l ih => exact ih (op.result V)

/-- The four stretches: the first layer (37 operations), the second (25), the head's scores (22), the log-softmax (15, itself
    in four short runs: the row maximum, the shifted scores, the sum of exponentials, the result). -/
abbrev opsA : List (HloOp τ sig (Elt F)) := (ops (F := F)).take 37
abbrev opsB : List (HloOp τ sig (Elt F)) := ((ops (F := F)).drop 37).take 25
abbrev opsC : List (HloOp τ sig (Elt F)) := ((ops (F := F)).drop 62).take 22
abbrev opsD1 : List (HloOp τ sig (Elt F)) := ((ops (F := F)).drop 84).take 5
abbrev opsD2 : List (HloOp τ sig (Elt F)) := ((ops (F := F)).drop 89).take 3
abbrev opsD3 : List (HloOp τ sig (Elt F)) := ((ops (F := F)).drop 92).take 3
abbrev opsD4 : List (HloOp τ sig (Elt F)) := (ops (F := F)).drop 95

theorem ops_split : (ops (F := F)) = opsA ++ (opsB ++ (opsC ++ (opsD1 ++ (opsD2 ++ (opsD3 ++ opsD4))))) := rfl

/-! ## What each stretch leaves untouched -/

theorem keepA_arg1 (V : Valuation τ sig (Elt F)) : after (opsA (F := F)) V (Proc.devRef .tc main_arg1) = V (Proc.devRef .tc main_arg1) := by
  simp only [opsA, ops, List.drop_succ_cons, List.drop_zero, List.take_succ_cons, List.take_zero]
  after_results_simp
theorem keepA_arg2 (V : Valuation τ sig (Elt F)) : after (opsA (F := F)) V (Proc.devRef .tc main_arg2) = V (Proc.devRef .tc main_arg2) := by
  simp only [opsA, ops, List.drop_succ_cons, List.drop_zero, List.take_succ_cons, List.take_zero]
  after_results_simp
theorem keepA_arg6 (V : Valuation τ sig (Elt F)) : after (opsA (F := F)) V (Proc.devRef .tc main_arg6) = V (Proc.devRef .tc main_arg6) := by
  simp only [opsA, ops, List.drop_succ_cons, List.drop_zero, List.take_succ_cons, List.take_zero]
  after_results_simp
theorem keepA_arg7 (V : Valuation τ sig (Elt F)) : after (opsA (F := F)) V (Proc.devRef .tc main_arg7) = V (Proc.devRef .tc main_arg7) := by
  simp only [opsA, ops, List.drop_succ_cons, List.drop_zero, List.take_succ_cons, List.take_zero]
  after_results_simp
theorem keepA_arg8 (V : Valuation τ sig (Elt F)) : after (opsA (F := F)) V (Proc.devRef .tc main_arg8) = V (Proc.devRef .tc main_arg8) := by
  simp only [opsA, ops, List.drop_succ_cons, List.drop_zero, List.take_succ_cons, List.take_zero]
  after_results_simp
theorem keepA_arg9 (V : Valuation τ sig (Elt F)) : after (opsA (F := F)) V (Proc.devRef .tc main_arg9) = V (Proc.devRef .tc main_arg9) := by
  simp only [opsA, ops, List.drop_succ_cons, List.drop_zero, List.take_succ_cons, List.take_zero]
  after_results_simp
theorem keepA_arg10 (V : Valuation τ sig (Elt F)) : after (opsA (F := F)) V (Proc.devRef .tc main_arg10) = V (Proc.devRef .tc main_arg10) := by
  simp only [opsA, ops, List.drop_succ_cons, List.drop_zero, List.take_succ_cons, List.take_zero]
  after_results_simp
theorem keepA_arg11 (V : Valuation τ sig (Elt F)) : after (opsA (F := F)) V (Proc.devRef .tc main_arg11) = V (Proc.devRef .tc main_arg11) := by
  simp only [opsA, ops, List.drop_succ_cons, List.drop_zero, List.take_succ_cons, List.take_zero]
  after_results_simp
theorem keepB_v7 (V : Valuation τ sig (Elt F)) : after (opsB (F := F)) V (Proc.devRef .tc main_v7) = V (Proc.devRef .tc main_v7) := by
  simp only [opsB, ops, List.drop_succ_cons, List.drop_zero, List.take_succ_cons, List.take_zero]
  after_results_simp
theorem keepB_arg1 (V : Valuation τ sig (Elt F)) : after (opsB (F := F)) V (Proc.devRef .tc main_arg1) = V (Proc.devRef .tc main_arg1) := by
  simp only [opsB, ops, List.drop_succ_cons, List.drop_zero, List.take_succ_cons, List.take_zero]
  after_results_simp
theorem keepB_arg2 (V : Valuation τ sig (Elt F)) : after (opsB (F := F)) V (Proc.devRef .tc main_arg2) = V (Proc.devRef .tc main_arg2) := by
  simp only [opsB, ops, List.drop_succ_cons, List.drop_zero, List.take_succ_cons, List.take_zero]
  after_results_simp
theorem keepB_arg9 (V : Valuation τ sig (Elt F)) : after (opsB (F := F)) V (Proc.devRef .tc main_arg9) = V (Proc.devRef .tc main_arg9) := by
  simp only [opsB, ops, List.drop_succ_cons, List.drop_zero, List.take_succ_cons, List.take_zero]
  after_results_simp
theorem keepB_arg10 (V : Valuation τ sig (Elt F)) : after (opsB (F := F)) V (Proc.devRef .tc main_arg10) = V (Proc.devRef .tc main_arg10) := by
  simp only [opsB, ops, List.drop_succ_cons, List.drop_zero, List.take_succ_cons, List.take_zero]
  after_results_simp
theorem keepB_arg11 (V : Valuation τ sig (Elt F)) : after (opsB (F := F)) V (Proc.devRef .tc main_arg11) = V (Proc.devRef .tc main_arg11) := by
  simp only [opsB, ops, List.drop_succ_cons, List.drop_zero, List.take_succ_cons, List.take_zero]
  after_results_simp

theorem keepD1_v66 (V : Valuation τ sig (Elt F)) : after (opsD1 (F := F)) V (Proc.devRef .tc main_v66) = V (Proc.devRef .tc main_v66) := by
  simp only [opsD1, ops, List.drop_succ_cons, List.drop_zero, List.take_succ_cons, List.take_zero]
  after_results_simp
theorem keepD3_call2_v5 (V : Valuation τ sig (Elt F)) : after (opsD3 (F := F)) V (Proc.devRef .tc main_call2_v5) = V (Proc.devRef .tc main_call2_v5) := by
  simp only [opsD3, ops, List.drop_succ_cons, List.drop_zero, List.take_succ_cons, List.take_zero]
  after_results_simp

end Cert.Proof.RefSplit

end
-- ==== Proof.RefStages.lean ====
/-
  What each of the reference's four stretches computes, against the stage functions of the arguments: a later
  stretch sees an earlier layer only as the value of one named function of the arguments, so no stretch's term
  carries the earlier stretches' terms inside it.  -/
import proofs.«156376_j6055903887402_1_alg».proof.Proof.RefSplit

set_option maxRecDepth 65536

noncomputable section

namespace Cert.Proof.RefStages

open Cert.Proof.RefSplit
open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## What each stretch computes -/

set_option maxHeartbeats 4000000 in
/-- The first stretch leaves the first hidden layer in its buffer. -/
theorem stA27 (m : (ℓ : Loc nD τ sig) → Buf (Elt F) ℓ) (c : Dev nD) :
    after (opsA (F := F)) (launchContents m c) (Proc.devRef .tc main_v27) = val_main_v27 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  simp only [opsA, ops, List.drop_succ_cons, List.drop_zero, List.take_succ_cons, List.take_zero]
  after_results_simp
  simp only [val_main_v27, val_main_v26, val_main_call0_v0, val_main_call0_cst, val_main_v25, val_main_v24, val_main_v23, val_main_v22, val_main_v21, val_main_v20, val_main_v19, val_main_v18, val_main_v17, val_main_v16, val_main_v15, val_main_cst_4, val_main_v14, val_main_v13, val_main_v12, val_main_v11, val_main_v10, val_main_c_3, val_main_v9, val_main_v8, val_main_c, val_main_v7, val_main_v6, val_main_cst_2, val_main_v5, val_main_v4, val_main_cst_1, val_main_v3, val_main_v2, val_main_v1, val_main_cst_0, val_main_v0, val_main_cst]
  first | done | rfl

set_option maxHeartbeats 4000000 in
/-- … and the reciprocal in-degrees in theirs. -/
theorem stA7 (m : (ℓ : Loc nD τ sig) → Buf (Elt F) ℓ) (c : Dev nD) :
    after (opsA (F := F)) (launchContents m c) (Proc.devRef .tc main_v7) = val_main_v7 (F := F) (m ((c.tc : Thread nD τ).loc main_arg2)) := by
  simp only [opsA, ops, List.drop_succ_cons, List.drop_zero, List.take_succ_cons, List.take_zero]
  after_results_simp
  simp only [val_main_v27, val_main_v26, val_main_call0_v0, val_main_call0_cst, val_main_v25, val_main_v24, val_main_v23, val_main_v22, val_main_v21, val_main_v20, val_main_v19, val_main_v18, val_main_v17, val_main_v16, val_main_v15, val_main_cst_4, val_main_v14, val_main_v13, val_main_v12, val_main_v11, val_main_v10, val_main_c_3, val_main_v9, val_main_v8, val_main_c, val_main_v7, val_main_v6, val_main_cst_2, val_main_v5, val_main_v4, val_main_cst_1, val_main_v3, val_main_v2, val_main_v1, val_main_cst_0, val_main_v0, val_main_cst]
  first | done | rfl

set_option maxHeartbeats 4000000 in
/-- The second stretch, from a valuation holding the first layer, the reciprocal in-degrees and the arguments it reads. -/
theorem stB47 (V1 : Valuation τ sig (Elt F)) (x0 : (⟨S100000x128, .f32⟩ : BufTy).Contents (Elt F)) (x1 x2 : (⟨S1600000, .i32⟩ : BufTy).Contents (Elt F)) (x3 x4 : (⟨S128x128, .f32⟩ : BufTy).Contents (Elt F)) (x5 : (⟨S128, .f32⟩ : BufTy).Contents (Elt F)) (x6 x7 : (⟨S128x128, .f32⟩ : BufTy).Contents (Elt F)) (x8 : (⟨S128, .f32⟩ : BufTy).Contents (Elt F))
    (h27 : V1 (Proc.devRef .tc main_v27) = val_main_v27 (F := F) x0 x1 x2 x3 x4 x5) (h7 : V1 (Proc.devRef .tc main_v7) = val_main_v7 (F := F) x2)
    (h1 : V1 (Proc.devRef .tc main_arg1) = x1) (h2 : V1 (Proc.devRef .tc main_arg2) = x2) (h6 : V1 (Proc.devRef .tc main_arg6) = x6)
    (h7' : V1 (Proc.devRef .tc main_arg7) = x7) (h8 : V1 (Proc.devRef .tc main_arg8) = x8) :
    after (opsB (F := F)) V1 (Proc.devRef .tc main_v47) = val_main_v47 (F := F) x0 x1 x2 x3 x4 x5 x6 x7 x8 := by
  simp only [opsB, ops, List.drop_succ_cons, List.drop_zero, List.take_succ_cons, List.take_zero]
  after_results_simp
  rw [h27, h7, h1, h2, h6, h7', h8]
  simp only [val_main_v47, val_main_v46, val_main_call1_v0, val_main_call1_cst, val_main_v45, val_main_v44, val_main_v43, val_main_v42, val_main_v41, val_main_v40, val_main_v39, val_main_v38, val_main_v37, val_main_v36, val_main_v35, val_main_cst_7, val_main_v34, val_main_v33, val_main_v32, val_main_v31, val_main_v30, val_main_c_6, val_main_v29, val_main_v28, val_main_c_5]
  first | done | rfl

set_option maxHeartbeats 4000000 in
/-- The third stretch, from a valuation holding the second layer. -/
theorem stC66 (V2 : Valuation τ sig (Elt F)) (x0 : (⟨S100000x128, .f32⟩ : BufTy).Contents (Elt F)) (x1 x2 : (⟨S1600000, .i32⟩ : BufTy).Contents (Elt F)) (x3 x4 : (⟨S128x128, .f32⟩ : BufTy).Contents (Elt F)) (x5 : (⟨S128, .f32⟩ : BufTy).Contents (Elt F)) (x6 x7 : (⟨S128x128, .f32⟩ : BufTy).Contents (Elt F)) (x8 : (⟨S128, .f32⟩ : BufTy).Contents (Elt F)) (x9 x10 : (⟨S128x47, .f32⟩ : BufTy).Contents (Elt F)) (x11 : (⟨S47, .f32⟩ : BufTy).Contents (Elt F))
    (h47 : V2 (Proc.devRef .tc main_v47) = val_main_v47 (F := F) x0 x1 x2 x3 x4 x5 x6 x7 x8) (h7 : V2 (Proc.devRef .tc main_v7) = val_main_v7 (F := F) x2)
    (h1 : V2 (Proc.devRef .tc main_arg1) = x1) (h2 : V2 (Proc.devRef .tc main_arg2) = x2) (h9 : V2 (Proc.devRef .tc main_arg9) = x9)
    (h10 : V2 (Proc.devRef .tc main_arg10) = x10) (h11 : V2 (Proc.devRef .tc main_arg11) = x11) :
    after (opsC (F := F)) V2 (Proc.devRef .tc main_v66) = val_main_v66 (F := F) x0 x1 x2 x3 x4 x5 x6 x7 x8 x9 x10 x11 := by
  simp only [opsC, ops, List.drop_succ_cons, List.drop_zero, List.take_succ_cons, List.take_zero]
  after_results_simp
  rw [h47, h7, h1, h2, h9, h10, h11]
  simp only [val_main_v66, val_main_v65, val_main_v64, val_main_v63, val_main_v62, val_main_v61, val_main_v60, val_main_v59, val_main_v58, val_main_v57, val_main_v56, val_main_v55, val_main_cst_10, val_main_v54, val_main_v53, val_main_v52, val_main_v51, val_main_v50, val_main_c_9, val_main_v49, val_main_v48, val_main_c_8]
  first | done | rfl

end Cert.Proof.RefStages

end
-- ==== Proof.RefSoft.lean ====
/-
  The reference's last stretch, the log-softmax of the head's scores, in four short runs: the row maximum, the
  shifted scores, the row sums of their exponentials, and the shifted scores minus the logarithms of those sums.
  Each run is read against the stage functions of the arguments, from a valuation that holds the earlier runs'
  results as the values of those functions.
-/
import proofs.«156376_j6055903887402_1_alg».proof.Proof.RefSplit

set_option maxRecDepth 65536

noncomputable section

namespace Cert.Proof.RefSoft

open Cert.Proof.RefSplit
open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- A value carried into a buffer of its own type and back out is the value. -/
theorem ofBuf_toBuf {T : BufTy} (x : TRef sig T) (v : T.Contents (Elt F)) : x.ofBuf (x.toBuf v) = v := by
  obtain ⟨r, h, a, b⟩ := x
  subst h
  rfl

/-- The scores' buffer has the scores' type: reading it as a value changes nothing. -/
theorem ofBuf_main_v66 (h1 h2 h3) (v : (⟨S100000x47, .f32⟩ : BufTy).Contents (Elt F)) : (TRef.of (T := ⟨S100000x47, .f32⟩) main_v66 h1 h2 h3).ofBuf v = v := rfl
/-- So has the result's buffer. -/
theorem ofBuf_main_v67 (h1 h2 h3) (v : (⟨S100000x47, .f32⟩ : BufTy).Contents (Elt F)) : (TRef.of (T := ⟨S100000x47, .f32⟩) main_v67 h1 h2 h3).ofBuf v = v := rfl

set_option maxHeartbeats 4000000 in
/-- The row maxima, from a valuation holding the scores. -/
theorem stD1 (V : Valuation τ sig (Elt F)) (x0 : (⟨S100000x128, .f32⟩ : BufTy).Contents (Elt F)) (x1 x2 : (⟨S1600000, .i32⟩ : BufTy).Contents (Elt F)) (x3 x4 : (⟨S128x128, .f32⟩ : BufTy).Contents (Elt F)) (x5 : (⟨S128, .f32⟩ : BufTy).Contents (Elt F)) (x6 x7 : (⟨S128x128, .f32⟩ : BufTy).Contents (Elt F)) (x8 : (⟨S128, .f32⟩ : BufTy).Contents (Elt F)) (x9 x10 : (⟨S128x47, .f32⟩ : BufTy).Contents (Elt F)) (x11 : (⟨S47, .f32⟩ : BufTy).Contents (Elt F))
    (h66 : ∀ h1 h2 h3, (TRef.of (T := ⟨S100000x47, .f32⟩) main_v66 h1 h2 h3).ofBuf (V (Proc.devRef .tc main_v66)) = val_main_v66 (F := F) x0 x1 x2 x3 x4 x5 x6 x7 x8 x9 x10 x11) :
    ∀ h1 h2 h3, (TRef.of (T := ⟨S100000, .f32⟩) main_call2_v2 h1 h2 h3).ofBuf (after (opsD1 (F := F)) V (Proc.devRef .tc main_call2_v2)) = val_main_call2_v2 (F := F) x0 x1 x2 x3 x4 x5 x6 x7 x8 x9 x10 x11 := by
  intro h1 h2 h3
  simp only [opsD1, ops, List.drop_succ_cons, List.drop_zero, List.take_succ_cons, List.take_zero]
  after_results_simp
  rw [h66]
  simp only [ofBuf_toBuf]
  simp only [val_main_call2_v2, val_main_call2_v1, val_main_call2_cst_0, val_main_call2_v0, val_main_call2_cst]
  first | done | rfl

set_option maxHeartbeats 4000000 in
/-- The shifted scores, from a valuation holding the scores and the row maxima. -/
theorem stD2 (V : Valuation τ sig (Elt F)) (x0 : (⟨S100000x128, .f32⟩ : BufTy).Contents (Elt F)) (x1 x2 : (⟨S1600000, .i32⟩ : BufTy).Contents (Elt F)) (x3 x4 : (⟨S128x128, .f32⟩ : BufTy).Contents (Elt F)) (x5 : (⟨S128, .f32⟩ : BufTy).Contents (Elt F)) (x6 x7 : (⟨S128x128, .f32⟩ : BufTy).Contents (Elt F)) (x8 : (⟨S128, .f32⟩ : BufTy).Contents (Elt F)) (x9 x10 : (⟨S128x47, .f32⟩ : BufTy).Contents (Elt F)) (x11 : (⟨S47, .f32⟩ : BufTy).Contents (Elt F))
    (h66 : ∀ h1 h2 h3, (TRef.of (T := ⟨S100000x47, .f32⟩) main_v66 h1 h2 h3).ofBuf (V (Proc.devRef .tc main_v66)) = val_main_v66 (F := F) x0 x1 x2 x3 x4 x5 x6 x7 x8 x9 x10 x11)
    (h2' : ∀ h1 h2 h3, (TRef.of (T := ⟨S100000, .f32⟩) main_call2_v2 h1 h2 h3).ofBuf (V (Proc.devRef .tc main_call2_v2)) = val_main_call2_v2 (F := F) x0 x1 x2 x3 x4 x5 x6 x7 x8 x9 x10 x11) :
    ∀ h1 h2 h3, (TRef.of (T := ⟨S100000x47, .f32⟩) main_call2_v5 h1 h2 h3).ofBuf (after (opsD2 (F := F)) V (Proc.devRef .tc main_call2_v5)) = val_main_call2_v5 (F := F) x0 x1 x2 x3 x4 x5 x6 x7 x8 x9 x10 x11 := by
  intro h1 h2 h3
  simp only [opsD2, ops, List.drop_succ_cons, List.drop_zero, List.take_succ_cons, List.take_zero]
  after_results_simp
  rw [h66, h2']
  simp only [ofBuf_toBuf]
  simp only [val_main_call2_v5, val_main_call2_v4, val_main_call2_v3]
  first | done | rfl

set_option maxHeartbeats 4000000 in
/-- The row sums of the exponentials, from a valuation holding the shifted scores. -/
theorem stD3 (V : Valuation τ sig (Elt F)) (x0 : (⟨S100000x128, .f32⟩ : BufTy).Contents (Elt F)) (x1 x2 : (⟨S1600000, .i32⟩ : BufTy).Contents (Elt F)) (x3 x4 : (⟨S128x128, .f32⟩ : BufTy).Contents (Elt F)) (x5 : (⟨S128, .f32⟩ : BufTy).Contents (Elt F)) (x6 x7 : (⟨S128x128, .f32⟩ : BufTy).Contents (Elt F)) (x8 : (⟨S128, .f32⟩ : BufTy).Contents (Elt F)) (x9 x10 : (⟨S128x47, .f32⟩ : BufTy).Contents (Elt F)) (x11 : (⟨S47, .f32⟩ : BufTy).Contents (Elt F))
    (h5 : ∀ h1 h2 h3, (TRef.of (T := ⟨S100000x47, .f32⟩) main_call2_v5 h1 h2 h3).ofBuf (V (Proc.devRef .tc main_call2_v5)) = val_main_call2_v5 (F := F) x0 x1 x2 x3 x4 x5 x6 x7 x8 x9 x10 x11) :
    ∀ h1 h2 h3, (TRef.of (T := ⟨S100000, .f32⟩) main_call2_v7 h1 h2 h3).ofBuf (after (opsD3 (F := F)) V (Proc.devRef .tc main_call2_v7)) = val_main_call2_v7 (F := F) x0 x1 x2 x3 x4 x5 x6 x7 x8 x9 x10 x11 := by
  intro h1 h2 h3
  simp only [opsD3, ops, List.drop_succ_cons, List.drop_zero, List.take_succ_cons, List.take_zero]
  after_results_simp
  rw [h5]
  simp only [ofBuf_toBuf]
  simp only [val_main_call2_v7, val_main_call2_cst_1, val_main_call2_v6]
  first | done | rfl

set_option maxHeartbeats 4000000 in
/-- The result, from a valuation holding the shifted scores and the row sums. -/
theorem stD4 (V : Valuation τ sig (Elt F)) (x0 : (⟨S100000x128, .f32⟩ : BufTy).Contents (Elt F)) (x1 x2 : (⟨S1600000, .i32⟩ : BufTy).Contents (Elt F)) (x3 x4 : (⟨S128x128, .f32⟩ : BufTy).Contents (Elt F)) (x5 : (⟨S128, .f32⟩ : BufTy).Contents (Elt F)) (x6 x7 : (⟨S128x128, .f32⟩ : BufTy).Contents (Elt F)) (x8 : (⟨S128, .f32⟩ : BufTy).Contents (Elt F)) (x9 x10 : (⟨S128x47, .f32⟩ : BufTy).Contents (Elt F)) (x11 : (⟨S47, .f32⟩ : BufTy).Contents (Elt F))
    (h5 : ∀ h1 h2 h3, (TRef.of (T := ⟨S100000x47, .f32⟩) main_call2_v5 h1 h2 h3).ofBuf (V (Proc.devRef .tc main_call2_v5)) = val_main_call2_v5 (F := F) x0 x1 x2 x3 x4 x5 x6 x7 x8 x9 x10 x11)
    (h7 : ∀ h1 h2 h3, (TRef.of (T := ⟨S100000, .f32⟩) main_call2_v7 h1 h2 h3).ofBuf (V (Proc.devRef .tc main_call2_v7)) = val_main_call2_v7 (F := F) x0 x1 x2 x3 x4 x5 x6 x7 x8 x9 x10 x11) :
    ∀ h1 h2 h3, (TRef.of (T := ⟨S100000x47, .f32⟩) main_v67 h1 h2 h3).ofBuf (after (opsD4 (F := F)) V (Proc.devRef .tc main_v67)) = val_main_v67 (F := F) x0 x1 x2 x3 x4 x5 x6 x7 x8 x9 x10 x11 := by
  intro h1 h2 h3
  simp only [opsD4, ops, List.drop_succ_cons, List.drop_zero, List.take_succ_cons, List.take_zero]
  after_results_simp
  rw [h5, h7]
  simp only [ofBuf_toBuf]
  simp only [val_main_v67, val_main_call2_v10, val_main_call2_v9, val_main_call2_v8]
  first | done | rfl

end Cert.Proof.RefSoft

end
-- ==== Proof.RefRun.lean ====
/-
  The reference's run, read back: every weakly fair execution of its 99 host operations ends with the result
  buffer at the last stage function of the arguments' launch contents — the four stretches chained — and with the
  arguments unchanged.
-/
import proofs.«156376_j6055903887402_1_alg».proof.Proof.RefStages
import proofs.«156376_j6055903887402_1_alg».proof.Proof.RefSoft

set_option maxRecDepth 65536

noncomputable section

namespace Cert.Proof.RefRun

open Cert.Proof.RefSplit Cert.Proof.RefStages Cert.Proof.RefSoft
open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The whole line's fold at the result buffer: the last stage function of the launch contents of the arguments. -/
theorem after_result (m : (ℓ : Loc nD τ sig) → Buf (Elt F) ℓ) (c : Dev nD) :
    after (ops (F := F)) (launchContents m c) (Proc.devRef .tc main_v67)
      = val_main_v67 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [ops_split, after_append, after_append, after_append, after_append, after_append, after_append]
  have hC : after (opsC (F := F)) (after (opsB (F := F)) (after (opsA (F := F)) (launchContents m c))) (Proc.devRef .tc main_v66)
      = val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
    refine stC66 _ _ _ _ _ _ _ _ _ _ _ _ _ ?_ ?_ ?_ ?_ ?_ ?_ ?_
    · exact stB47 _ _ _ _ _ _ _ _ _ _ (stA27 m c) (stA7 m c) ((keepA_arg1 _).trans rfl) ((keepA_arg2 _).trans rfl)
        ((keepA_arg6 _).trans rfl) ((keepA_arg7 _).trans rfl) ((keepA_arg8 _).trans rfl)
    · exact (keepB_v7 _).trans (stA7 m c)
    · exact (keepB_arg1 _).trans ((keepA_arg1 _).trans rfl)
    · exact (keepB_arg2 _).trans ((keepA_arg2 _).trans rfl)
    · exact (keepB_arg9 _).trans ((keepA_arg9 _).trans rfl)
    · exact (keepB_arg10 _).trans ((keepA_arg10 _).trans rfl)
    · exact (keepB_arg11 _).trans ((keepA_arg11 _).trans rfl)
  generalize after (opsC (F := F)) (after (opsB (F := F)) (after (opsA (F := F)) (launchContents m c))) = V3 at hC ⊢
  have h66 : ∀ h1 h2 h3, (TRef.of (T := ⟨S100000x47, .f32⟩) main_v66 h1 h2 h3).ofBuf (V3 (Proc.devRef .tc main_v66))
      = val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := fun h1 h2 h3 => by
    rw [hC]; exact ofBuf_main_v66 h1 h2 h3 _
  have h2 := stD1 V3 _ _ _ _ _ _ _ _ _ _ _ _ h66
  have h66' : ∀ h1 h2 h3, (TRef.of (T := ⟨S100000x47, .f32⟩) main_v66 h1 h2 h3).ofBuf (after (opsD1 (F := F)) V3 (Proc.devRef .tc main_v66))
      = val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := fun h1 h2 h3 => by
    rw [keepD1_v66]; exact h66 h1 h2 h3
  have h5 := stD2 _ _ _ _ _ _ _ _ _ _ _ _ _ h66' h2
  have h7 := stD3 _ _ _ _ _ _ _ _ _ _ _ _ _ h5
  have h5' : ∀ h1 h2 h3, (TRef.of (T := ⟨S100000x47, .f32⟩) main_call2_v5 h1 h2 h3).ofBuf
      (after (opsD3 (F := F)) (after (opsD2 (F := F)) (after (opsD1 (F := F)) V3)) (Proc.devRef .tc main_call2_v5))
      = val_main_call2_v5 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := fun h1 h2 h3 => by
    rw [keepD3_call2_v5]; exact h5 h1 h2 h3
  have hfin := stD4 _ _ _ _ _ _ _ _ _ _ _ _ _ h5' h7 rfl (by decide) rfl
  exact (ofBuf_main_v67 rfl (by decide) rfl _).symm.trans hfin

set_option maxHeartbeats 4000000 in
/-- On every device, from any memory with zero counters: every weakly fair execution of the reference terminates with
    its result at the last stage function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v67) = val_main_v67 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v67).trans (after_result m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl)⟩)
    (run_seq scopedRefs_eq scopedSems_eq defs main (fun _ => ops) main_eq (fun _ => ops_sub) m ρ)

end Cert.Proof.RefRun

end
-- ==== Proof.LibRealOps.lean ====
import Idealize.ShloMosaic.PureOps.Ideal
import Idealize.ShloMosaic.PureOps.Ideal.Laws
import Idealize.ShloMosaic.PureOps.IdealRules

/-!
# Real-valued arrays are closed under the whole-array operations

At the ideal instance a float array is a function into the extended reals. An array is
*all real* when every entry is (the image of) a real number. This file shows that the
elementwise arithmetic, the re-indexings (broadcast, gather), the finite sums (scatter-add,
dot products) and the quotient 1 / max(y, 1) keep an array all real: a finite sum or a
product of reals is a real, the maximum of two reals is a real, and a quotient of reals with a
nonzero denominator is a real.
-/

open Idealize Idealize.ShloMosaic

namespace Cert.Proof.RealOps

/-- Every entry of the array is a real number. -/
def AllReal {ι : Type*} (f : ι → EReal) : Prop := ∀ i, ∃ r : ℝ, f i = (r : EReal)

/-! ### Scalars: sums, products, maxima and finite sums of reals are reals -/

theorem real_add {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb
  exact ⟨x + y, (EReal.coe_add x y).symm⟩

theorem real_sub {a b : EReal} (ha : ∃ r : ℝ, a = (r : EReal)) (hb : ∃ r : ℝ, b = (r : EReal)) :
    ∃ r : ℝ, a - b = (r : EReal) := by
  obtain ⟨x, rfl⟩ := ha; obtain ⟨y, rfl⟩ := hb
  exact ⟨x - y, (EReal.coe_sub x y).symm⟩

theorem real_mul {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb
  exact ⟨x * y, (EReal.coe_mul x y).symm⟩

theorem real_max {a b : EReal} (ha : ∃ r : ℝ, a = (r : EReal)) (hb : ∃ r : ℝ, b = (r : EReal)) :
    ∃ r : ℝ, max a b = (r : EReal) := by
  obtain ⟨x, rfl⟩ := ha; obtain ⟨y, rfl⟩ := hb
  exact ⟨max x y, (EReal.coe_strictMono.monotone.map_max).symm⟩

/-- A finite sum of reals is a real: by induction on the index set, one summand at a time. -/
theorem real_sum {ι : Type*} (t : Finset ι) (f : ι → EReal) (h : ∀ i ∈ t, ∃ r : ℝ, f i = (r : EReal)) :
    ∃ r : ℝ, ∑ i ∈ t, f i = (r : EReal) := by
  classical
  induction t using Finset.induction_on with
  | empty => exact ⟨0, by rw [Finset.sum_empty, EReal.coe_zero]⟩
  | insert a t ha ih =>
    rw [Finset.sum_insert ha]
    exact real_add (h a (Finset.mem_insert_self a t)) (ih fun i hi => h i (Finset.mem_insert_of_mem hi))

/-! ### 1. Elementwise arithmetic -/

theorem AllReal.addf {s : Shape} {x y : FVec Ideal s .f32} (hx : AllReal x) (hy : AllReal y) :
    AllReal (ShloMosaic.addf x y) := fun i => real_add (hx i) (hy i)

theorem AllReal.subf {s : Shape} {x y : FVec Ideal s .f32} (hx : AllReal x) (hy : AllReal y) :
    AllReal (ShloMosaic.subf x y) := fun i => real_sub (hx i) (hy i)

theorem AllReal.mulf {s : Shape} {x y : FVec Ideal s .f32} (hx : AllReal x) (hy : AllReal y) :
    AllReal (ShloMosaic.mulf x y) := fun i => real_mul (hx i) (hy i)

theorem AllReal.maximumf {s : Shape} {x y : FVec Ideal s .f32} (hx : AllReal x) (hy : AllReal y) :
    AllReal (ShloMosaic.maximumf x y) := fun i => real_max (hx i) (hy i)

/-! ### 2. Re-indexings: the result reads the operand at some index -/

theorem AllReal.broadcastInDim {s t : Shape} (dims : Fin s.rank → Fin t.rank) (h : s.BroadcastsInDim t dims)
    {x : FVec Ideal s .f32} (hx : AllReal x) : AllReal (ShloMosaic.broadcastInDim t dims h x) :=
  fun _ => hx _

theorem AllReal.gather {s si t : Shape} {w : Nat} (d : GatherDims s si t) {x : FVec Ideal s .f32} (idx : IVec si w)
    (hx : AllReal x) : AllReal (Host.gather d x idx) :=
  fun _ => hx _

/-! ### 3. Scatter-add: the operand's entry plus a finite sum of update entries -/

theorem AllReal.scatterAdd {s si u : Shape} {w : Nat} (d : ScatterDims s si u) {x : FVec Ideal s .f32}
    (idx : IVec si w) {upd : FVec Ideal u .f32} (hx : AllReal x) (hu : AllReal upd) :
    AllReal (Host.scatterAdd (F := Ideal) d x idx upd) := by
  intro i
  unfold Host.scatterAdd
  rw [Ideal.hostScatterAdd_def]
  unfold Ideal.hostScatterAdd
  exact real_add (hx i) (real_sum _ _ fun j _ => hu j)

/-! ### 4. Dot products: a finite sum of products -/

theorem AllReal.dotGeneral {sl sr so : Shape} (d : DotDims sl sr so) (prec : Option ContractPrecision)
    {l : FVec Ideal sl .f32} {r : FVec Ideal sr .f32} (hl : AllReal l) (hr : AllReal r) :
    AllReal (Host.dotGeneral (F := Ideal) d prec l r) := by
  intro j
  show ∃ q : ℝ, FloatOps.dotGeneral d prec .single l r j = (q : EReal)
  rw [Ideal.dotGeneral_apply]
  exact real_sum _ _ fun k _ => real_mul (hl _) (hr _)

/-- With any all-real accumulator. -/
theorem AllReal.matmul_acc {sl sr so : Shape} (d : DotDims sl sr so) (prec : Option ContractPrecision)
    {l : FVec Ideal sl .f32} {r : FVec Ideal sr .f32} {acc : FVec Ideal so .f32}
    (hl : AllReal l) (hr : AllReal r) (hacc : AllReal acc) :
    AllReal (FloatOps.matmul d prec l r acc) := by
  intro j
  rw [Ideal.matmul_apply]
  exact real_add (hacc j) (real_sum _ _ fun k _ => real_mul (hl _) (hr _))

theorem AllReal.matmul {sl sr so : Shape} (d : DotDims sl sr so) (prec : Option ContractPrecision)
    {l : FVec Ideal sl .f32} {r : FVec Ideal sr .f32} (hl : AllReal l) (hr : AllReal r) :
    AllReal (FloatOps.matmul d prec l r (constant so .f32 0x00000000#32)) := by
  intro j
  rw [Ideal.matmul_constant_zero_apply]
  exact real_sum _ _ fun k _ => real_mul (hl _) (hr _)

/-! ### 5. The constants 0 and 1 -/

/-- The pattern of the float 1.0 denotes the extended real 1. -/
theorem ofBits_one_f32 : Ideal.ofBits .f32 0x3F800000#32 = 1 := IdealRules.sign_bit.ideal_onePat .f32

theorem constant_zero_apply (S : Shape) (i : S.Idx) : constant (F := Ideal) S .f32 0x00000000#32 i = 0 :=
  Ideal.ofBits_zero_f32

theorem constant_one_apply (S : Shape) (i : S.Idx) : constant (F := Ideal) S .f32 0x3F800000#32 i = 1 :=
  ofBits_one_f32

theorem AllReal.constant_zero (S : Shape) : AllReal (constant (F := Ideal) S .f32 0x00000000#32) :=
  fun i => ⟨0, by rw [constant_zero_apply, EReal.coe_zero]⟩

theorem AllReal.constant_one (S : Shape) : AllReal (constant (F := Ideal) S .f32 0x3F800000#32) :=
  fun i => ⟨1, by rw [constant_one_apply, EReal.coe_one]⟩

/-! ### 6. The reciprocal degree 1 / max(y, 1) -/

/-- A quotient of reals with a nonzero denominator is a real. -/
theorem real_div {a b : EReal} (ha : ∃ r : ℝ, a = (r : EReal)) (hb : ∃ r : ℝ, b = (r : EReal)) (h0 : b ≠ 0) :
    ∃ r : ℝ, Ideal.div a b = (r : EReal) := by
  obtain ⟨x, rfl⟩ := ha; obtain ⟨y, rfl⟩ := hb
  have hy : y ≠ 0 := fun h => h0 (by rw [h, EReal.coe_zero])
  exact ⟨x * (1 / y), by rw [Ideal.div_coe hy, EReal.coe_mul]⟩

/-- Elementwise division by an all-real array with no zero entry. -/
theorem AllReal.hostDivf {s : Shape} {x y : FVec Ideal s .f32} (hx : AllReal x) (hy : AllReal y)
    (h0 : ∀ i, y i ≠ 0) : AllReal (Host.divf (F := Ideal) x y) :=
  fun i => real_div (hx i) (hy i) (h0 i)

/-- For a real r the maximum of r and 1 is the real max r 1, which is at least 1 and so not zero:
    the quotient 1 / max(r, 1) is the real 1 / max r 1. -/
theorem div_one_max_one (r : ℝ) : Ideal.div 1 (max (r : EReal) 1) = ((1 / max r 1 : ℝ) : EReal) := by
  have h1 : max (r : EReal) 1 = ((max r 1 : ℝ) : EReal) := by
    rw [← EReal.coe_one]; exact (EReal.coe_strictMono.monotone.map_max).symm
  have hne : max r 1 ≠ 0 := ne_of_gt (lt_of_lt_of_le one_pos (le_max_right r 1))
  rw [h1, Ideal.div_coe hne, one_mul]

/-- The value of the reciprocal degree at an index where y is the real r. -/
theorem recipDeg_apply {s0 s : Shape} (dims : Fin s0.rank → Fin s.rank) (hb : s0.BroadcastsInDim s dims)
    (y : FVec Ideal s .f32) (i : s.Idx) {r : ℝ} (hr : y i = (r : EReal)) :
    Host.divf (F := Ideal) (ShloMosaic.broadcastInDim s dims hb (constant s0 .f32 0x3F800000#32))
        (ShloMosaic.maximumf y (ShloMosaic.broadcastInDim s dims hb (constant s0 .f32 0x3F800000#32))) i
      = ((1 / max r 1 : ℝ) : EReal) := by
  show Ideal.div (Ideal.ofBits .f32 0x3F800000#32) (max (y i) (Ideal.ofBits .f32 0x3F800000#32)) = _
  rw [ofBits_one_f32, hr, div_one_max_one]

theorem AllReal.recipDeg {s0 s : Shape} (dims : Fin s0.rank → Fin s.rank) (hb : s0.BroadcastsInDim s dims)
    {y : FVec Ideal s .f32} (hy : AllReal y) :
    AllReal (Host.divf (F := Ideal) (ShloMosaic.broadcastInDim s dims hb (constant s0 .f32 0x3F800000#32))
      (ShloMosaic.maximumf y (ShloMosaic.broadcastInDim s dims hb (constant s0 .f32 0x3F800000#32)))) := by
  intro i
  obtain ⟨r, hr⟩ := hy i
  exact ⟨1 / max r 1, recipDeg_apply dims hb y i hr⟩

/-- The literal instance: the scalar 1 broadcast from the rank-zero shape. -/
example {s : Shape} (hb : (⟨0, ![]⟩ : Shape).BroadcastsInDim s ![]) {y : FVec Ideal s .f32} (hy : AllReal y) :
    AllReal (Host.divf (F := Ideal) (ShloMosaic.broadcastInDim s ![] hb (constant (⟨0, ![]⟩ : Shape) .f32 0x3F800000#32))
      (ShloMosaic.maximumf y (ShloMosaic.broadcastInDim s ![] hb (constant (⟨0, ![]⟩ : Shape) .f32 0x3F800000#32)))) := by
  apply AllReal.recipDeg; exact hy

/-! ### 7. The log-softmax identity on reals

For real entries a k, the row maximum M (a fold of max from ⊥ over a nonempty index set) is a
real, the sum S of the exponentials exp (a k - M) is a positive real, so log S is a real; and on
reals  x - (M + L) = (x - M) - L,  while max ⊥ M = M. -/

/-- The coercion of a finite sum of reals is the sum of the coercions. -/
theorem coe_sum_real {ι : Type*} (t : Finset ι) (g : ι → ℝ) :
    ∑ i ∈ t, ((g i : ℝ) : EReal) = ((∑ i ∈ t, g i : ℝ) : EReal) := by
  classical
  induction t using Finset.induction_on with
  | empty => rw [Finset.sum_empty, Finset.sum_empty, EReal.coe_zero]
  | insert a t ha ih => rw [Finset.sum_insert ha, Finset.sum_insert ha, ih, EReal.coe_add]

/-- The fold of max from ⊥ over a nonempty finite set of reals is a real: the first element
    absorbs ⊥, and each further step is a maximum of two reals. -/
theorem real_fold_max {ι : Type*} (t : Finset ι) (f : ι → EReal) (h : ∀ i ∈ t, ∃ r : ℝ, f i = (r : EReal))
    (ht : t.Nonempty) : ∃ r : ℝ, t.fold max (⊥ : EReal) f = (r : EReal) := by
  classical
  induction t using Finset.induction_on with
  | empty => exact absurd ht Finset.not_nonempty_empty
  | insert a s ha ih =>
    rw [Finset.fold_insert ha]
    rcases s.eq_empty_or_nonempty with rfl | hs
    · rw [Finset.fold_empty, max_bot_right]; exact h a (Finset.mem_insert_self a _)
    · exact real_max (h a (Finset.mem_insert_self a _)) (ih (fun i hi => h i (Finset.mem_insert_of_mem hi)) hs)

/-- The logarithm of a positive real is a real. -/
theorem log_coe_of_pos {σ : ℝ} (h : 0 < σ) : Ideal.log (σ : EReal) = ((Real.log σ : ℝ) : EReal) := by
  rw [Ideal.log_coe, if_neg (not_le.mpr h)]

/-- On reals, subtracting a sum is subtracting twice; and ⊥ is neutral for max. -/
theorem sub_add_eq_sub_max_bot_sub {x m l : EReal} (hx : ∃ r : ℝ, x = (r : EReal)) (hm : ∃ r : ℝ, m = (r : EReal))
    (hl : ∃ r : ℝ, l = (r : EReal)) : x - (m + l) = (x - max ⊥ m) - l := by
  obtain ⟨x, rfl⟩ := hx; obtain ⟨m, rfl⟩ := hm; obtain ⟨l, rfl⟩ := hl
  rw [max_bot_left, ← EReal.coe_add, ← EReal.coe_sub, ← EReal.coe_sub, ← EReal.coe_sub, sub_add_eq_sub_sub]

section LogSoftmax
variable {ι : Type*} [Fintype ι] [Nonempty ι]

/-- The row maximum is a real. -/
theorem real_rowMax {a : ι → EReal} (ha : AllReal a) :
    ∃ m : ℝ, Finset.univ.fold max (⊥ : EReal) a = (m : EReal) :=
  real_fold_max Finset.univ a (fun i _ => ha i) Finset.univ_nonempty

/-- The sum of the exponentials of the entries shifted by a real is a positive real. -/
theorem real_sumExp_pos {a : ι → EReal} (ha : AllReal a) {M : EReal} (hM : ∃ m : ℝ, M = (m : EReal)) :
    ∃ σ : ℝ, 0 < σ ∧ ∑ k, Ideal.exp (a k - M) = (σ : EReal) := by
  obtain ⟨m, rfl⟩ := hM
  choose r hr using ha
  refine ⟨∑ k, Real.exp (r k - m), Finset.sum_pos (fun k _ => Real.exp_pos _) Finset.univ_nonempty, ?_⟩
  rw [← coe_sum_real]
  exact Finset.sum_congr rfl fun k _ => by rw [hr k, ← EReal.coe_sub, Ideal.exp_coe]

/-- Its logarithm is a real. -/
theorem real_logSumExp {a : ι → EReal} (ha : AllReal a) {M : EReal} (hM : ∃ m : ℝ, M = (m : EReal)) :
    ∃ l : ℝ, Ideal.log (∑ k, Ideal.exp (a k - M)) = (l : EReal) := by
  obtain ⟨σ, hσ, hS⟩ := real_sumExp_pos ha hM
  exact ⟨Real.log σ, by rw [hS, log_coe_of_pos hσ]⟩

/-- The log-softmax identity, with the row maximum and the sum of exponentials spelled out. -/
theorem logSoftmax_eq {a : ι → EReal} (ha : AllReal a) (j : ι) :
    a j - (Finset.univ.fold max (⊥ : EReal) a
            + Ideal.log (∑ k, Ideal.exp (a k - Finset.univ.fold max (⊥ : EReal) a)))
      = (a j - max ⊥ (Finset.univ.fold max (⊥ : EReal) a))
          - Ideal.log (∑ k, Ideal.exp (a k - Finset.univ.fold max (⊥ : EReal) a)) :=
  sub_add_eq_sub_max_bot_sub (ha j) (real_rowMax ha) (real_logSumExp ha (real_rowMax ha))

end LogSoftmax

/-- The instance at rows of 47 entries. -/
example (a : Fin 47 → EReal) (ha : AllReal a) (j : Fin 47) :
    a j - (Finset.univ.fold max (⊥ : EReal) a
            + Ideal.log (∑ k, Ideal.exp (a k - Finset.univ.fold max (⊥ : EReal) a)))
      = (a j - max ⊥ (Finset.univ.fold max (⊥ : EReal) a))
          - Ideal.log (∑ k, Ideal.exp (a k - Finset.univ.fold max (⊥ : EReal) a)) :=
  logSoftmax_eq ha j

/-! ### The lemmas fire by apply on the forms a program states -/

example {s si u : Shape} {w : Nat} (d : ScatterDims s si u) (x : FVec Ideal s .f32) (idx : IVec si w)
    (upd : FVec Ideal u .f32) (hx : AllReal x) (hu : AllReal upd) : AllReal (Host.scatterAdd d x idx upd) := by
  apply AllReal.scatterAdd <;> assumption

example {sl sr so : Shape} (d : DotDims sl sr so) (l : FVec Ideal sl .f32) (r : FVec Ideal sr .f32)
    (hl : AllReal l) (hr : AllReal r) : AllReal (Host.dotGeneral d none l r) := by
  apply AllReal.dotGeneral <;> assumption

example {sl sr so : Shape} (d : DotDims sl sr so) (l : FVec Ideal sl .f32) (r : FVec Ideal sr .f32)
    (hl : AllReal l) (hr : AllReal r) : AllReal (ShloMosaic.matmul d none l r (constant so .f32 0x00000000#32)) := by
  apply AllReal.matmul <;> assumption

example {s : Shape} (hb : (⟨0, ![]⟩ : Shape).BroadcastsInDim s ![]) :
    AllReal (ShloMosaic.broadcastInDim s ![] hb (constant (F := Ideal) (⟨0, ![]⟩ : Shape) .f32 0x00000000#32)) := by
  apply AllReal.broadcastInDim; apply AllReal.constant_zero

example {s si t : Shape} {w : Nat} (d : GatherDims s si t) (x y : FVec Ideal s .f32) (idx : IVec si w)
    (hx : AllReal x) (hy : AllReal y) : AllReal (Host.gather d (ShloMosaic.mulf (ShloMosaic.addf x y) (ShloMosaic.maximumf x y)) idx) := by
  apply AllReal.gather; apply AllReal.mulf
  · exact AllReal.addf hx hy
  · exact AllReal.maximumf hx hy

end Cert.Proof.RealOps
-- ==== Proof.Finite.lean ====
/-
  Every intermediate array of the network is real-valued when the float inputs are.  The gather reads entries of
  its operand, the scatter adds finitely many real updates onto real entries, the reciprocal in-degree is
  1 / max(deg, 1) with a real denominator at least 1, and sums, products and maxima of reals are real; so the
  aggregated features, both hidden layers and the head's scores are real at every entry, whatever the edge lists.
-/
import proofs.«156376_j6055903887402_1_alg».proof.Proof.LibRealOps
import proofs.«156376_j6055903887402_1_alg».proof.Proof.ReferenceReadP

noncomputable section

namespace Cert.Proof.Finite

open Cert.ReferenceIdeal Cert.ReferenceIdeal.Gen Cert.ReferenceIdeal.ReadP Cert.Proof.RealOps Idealize.ShloMosaic

/-- The reciprocal in-degrees are real. -/
theorem real_v7 (x2 : (⟨S1600000, .i32⟩ : BufTy).Contents (Elt Ideal)) : AllReal (val_main_v7 (F := Ideal) x2) :=
  AllReal.recipDeg _ _ (AllReal.scatterAdd _ _ (AllReal.broadcastInDim _ _ (AllReal.constant_zero _))
    (AllReal.broadcastInDim _ _ (AllReal.constant_one _)))

/-- The mean of the in-neighbours' rows of a real-valued array is real-valued (first layer). -/
theorem real_v20 (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 : (⟨S128, .f32⟩ : BufTy).Contents (Elt Ideal)) (h0 : AllReal x0) : AllReal (val_main_v20 (F := Ideal) x0 x1 x2) :=
  AllReal.mulf (AllReal.scatterAdd _ _ (AllReal.broadcastInDim _ _ (AllReal.constant_zero _)) (AllReal.gather _ _ h0))
    (AllReal.broadcastInDim _ _ (AllReal.broadcastInDim _ _ (real_v7 x2)))

/-- The first hidden layer is real-valued. -/
theorem real_v27 (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 : (⟨S128, .f32⟩ : BufTy).Contents (Elt Ideal)) (h0 : AllReal x0) (h3 : AllReal x3) (h4 : AllReal x4) (h5 : AllReal x5) :
    AllReal (val_main_v27 (F := Ideal) x0 x1 x2 x3 x4 x5) :=
  AllReal.maximumf
    (AllReal.addf (AllReal.addf (AllReal.dotGeneral _ _ h0 h3) (AllReal.dotGeneral _ _ (real_v20 x0 x1 x2 x3 x4 x5 h0) h4))
      (AllReal.broadcastInDim _ _ (AllReal.broadcastInDim _ _ h5)))
    (AllReal.broadcastInDim _ _ (AllReal.constant_zero _))

/-- The mean of the in-neighbours' rows of the first hidden layer. -/
theorem real_v40 (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 : (⟨S128, .f32⟩ : BufTy).Contents (Elt Ideal)) (h0 : AllReal x0) (h3 : AllReal x3) (h4 : AllReal x4) (h5 : AllReal x5) :
    AllReal (val_main_v40 (F := Ideal) x0 x1 x2 x3 x4 x5) :=
  AllReal.mulf (AllReal.scatterAdd _ _ (AllReal.broadcastInDim _ _ (AllReal.constant_zero _))
      (AllReal.gather _ _ (real_v27 x0 x1 x2 x3 x4 x5 h0 h3 h4 h5)))
    (AllReal.broadcastInDim _ _ (AllReal.broadcastInDim _ _ (real_v7 x2)))

/-- The second hidden layer is real-valued. -/
theorem real_v47 (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (h0 : AllReal x0) (h3 : AllReal x3) (h4 : AllReal x4) (h5 : AllReal x5)
    (h6 : AllReal x6) (h7 : AllReal x7) (h8 : AllReal x8) : AllReal (val_main_v47 (F := Ideal) x0 x1 x2 x3 x4 x5 x6 x7 x8) :=
  AllReal.maximumf
    (AllReal.addf (AllReal.addf (AllReal.dotGeneral _ _ (real_v27 x0 x1 x2 x3 x4 x5 h0 h3 h4 h5) h6)
        (AllReal.dotGeneral _ _ (real_v40 x0 x1 x2 x3 x4 x5 h0 h3 h4 h5) h7))
      (AllReal.broadcastInDim _ _ (AllReal.broadcastInDim _ _ h8)))
    (AllReal.broadcastInDim _ _ (AllReal.constant_zero _))

/-- The mean of the in-neighbours' rows of the second hidden layer. -/
theorem real_v60 (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (h0 : AllReal x0) (h3 : AllReal x3) (h4 : AllReal x4) (h5 : AllReal x5)
    (h6 : AllReal x6) (h7 : AllReal x7) (h8 : AllReal x8) : AllReal (val_main_v60 (F := Ideal) x0 x1 x2 x3 x4 x5 x6 x7 x8) :=
  AllReal.mulf (AllReal.scatterAdd _ _ (AllReal.broadcastInDim _ _ (AllReal.constant_zero _))
      (AllReal.gather _ _ (real_v47 x0 x1 x2 x3 x4 x5 x6 x7 x8 h0 h3 h4 h5 h6 h7 h8)))
    (AllReal.broadcastInDim _ _ (AllReal.broadcastInDim _ _ (real_v7 x2)))

/-- The head's scores are real-valued. -/
theorem real_v66 (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (x9 x10 : (⟨S128x47, .f32⟩ : BufTy).Contents (Elt Ideal)) (x11 : (⟨S47, .f32⟩ : BufTy).Contents (Elt Ideal)) (h0 : AllReal x0) (h3 : AllReal x3) (h4 : AllReal x4) (h5 : AllReal x5)
    (h6 : AllReal x6) (h7 : AllReal x7) (h8 : AllReal x8) (h9 : AllReal x9) (h10 : AllReal x10) (h11 : AllReal x11) :
    AllReal (val_main_v66 (F := Ideal) x0 x1 x2 x3 x4 x5 x6 x7 x8 x9 x10 x11) :=
  AllReal.addf (AllReal.addf (AllReal.dotGeneral _ _ (real_v47 x0 x1 x2 x3 x4 x5 x6 x7 x8 h0 h3 h4 h5 h6 h7 h8) h9)
      (AllReal.dotGeneral _ _ (real_v60 x0 x1 x2 x3 x4 x5 x6 x7 x8 h0 h3 h4 h5 h6 h7 h8) h10))
    (AllReal.broadcastInDim _ _ (AllReal.broadcastInDim _ _ h11))

end Cert.Proof.Finite

end
-- ==== Proof.FinitePre.lean ====
/-
  The precondition "every float input is finite", read back at the ideal instance: a float there is an extended
  real, the predicate compares |x| with +∞ entry by entry and takes the conjunction over every entry of every
  float argument; when it holds, every entry of every float argument is a real number.
-/
import proofs.«156376_j6055903887402_1_alg».proof.Proof.Gen.Pre_finite_inputs
import proofs.«156376_j6055903887402_1_alg».proof.Pre_finite_inputs
import Idealize.ShloMosaic.Lib.ValueIdx
import Idealize.ShloMosaic.Lib.ReduceAll

namespace Cert.Proof.FinitePre

open Idealize.ShloMosaic Idealize.ShloMosaic.ValueIdx Cert.Pre_finite_inputs

/-- The scalar shape has one index. -/
instance : Subsingleton S_.Idx := ⟨fun a b => funext fun d => d.elim0⟩

/-- An extended real whose absolute value max x (-x) lies below +∞ is a real number: +∞ has absolute value +∞,
    and so has -∞. -/
theorem real_of_abs_lt_top (x : EReal) (h : max x (-x) < ⊤) : ∃ r : ℝ, x = (r : EReal) := by
  induction x using EReal.rec with
  | bot => simp at h
  | coe r => exact ⟨r, rfl⟩
  | top => simp at h

/-- One entry: the comparison |x| < +∞ answering 1 says x is a real number (the pattern 0x7F800000 denotes +∞). -/
theorem real_of_cmp (x : Ideal .f32)
    (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  refine real_of_abs_lt_top x ?_
  by_contra hn
  simp [hn] at h'

/-- One conjunct of the precondition: the conjunction over all entries of |a| < +∞ being 1 says every entry of a is
    a real number. -/
theorem all_real {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi
          (cmpf .olt (Host.absf a) (broadcastInDim s ![] hb (constant (F := Ideal) S_ .f32 0x7F800000#32)))
          (constantI S_ 1 1#1) hr hu ix0 = 1#1) :
    ∀ i, ∃ r : ℝ, a i = (r : EReal) := fun i =>
  real_of_cmp (a i) (Host.reduce_andi_all _ _ hr hu ix0 h i)

variable [Cert.Pre_finite_inputs.Facts]

/-- The precondition holding says every entry of each of the ten float arguments is a real number. -/
theorem finite_of_pre (a0 : FVec Ideal S100000x128 .f32) (a1 a2 : IVec S1600000 32)
    (a3 a4 : FVec Ideal S128x128 .f32) (a5 : FVec Ideal S128 .f32) (a6 a7 : FVec Ideal S128x128 .f32)
    (a8 : FVec Ideal S128 .f32) (a9 a10 : FVec Ideal S128x47 .f32) (a11 : FVec Ideal S47 .f32)
    (h : Cert.Pre_finite_inputs.fn (F := Ideal) a0 a1 a2 a3 a4 a5 a6 a7 a8 a9 a10 a11 = fun _ => 1#1) :
    (∀ i, ∃ r : ℝ, a0 i = (r : EReal)) ∧ (∀ i, ∃ r : ℝ, a3 i = (r : EReal)) ∧ (∀ i, ∃ r : ℝ, a4 i = r) ∧
    (∀ i, ∃ r : ℝ, a5 i = r) ∧ (∀ i, ∃ r : ℝ, a6 i = r) ∧ (∀ i, ∃ r : ℝ, a7 i = r) ∧ (∀ i, ∃ r : ℝ, a8 i = r) ∧
    (∀ i, ∃ r : ℝ, a9 i = r) ∧ (∀ i, ∃ r : ℝ, a10 i = r) ∧ (∀ i, ∃ r : ℝ, a11 i = r) := by
  have e := congrFun h ix0
  dsimp only [fn, fn_part1, fn_part2, andi] at e
  obtain ⟨e, h11⟩ := IntOp.andi_eq_one.1 e
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨h0, h3⟩ := IntOp.andi_eq_one.1 e
  exact ⟨all_real a0 _ _ _ h0, all_real a3 _ _ _ h3, all_real a4 _ _ _ h4, all_real a5 _ _ _ h5,
    all_real a6 _ _ _ h6, all_real a7 _ _ _ h7, all_real a8 _ _ _ h8, all_real a9 _ _ _ h9,
    all_real a10 _ _ _ h10, all_real a11 _ _ _ h11⟩

end Cert.Proof.FinitePre
-- ==== Proof.Bridge.lean ====
/-
  The one law that joins the two programs.  On a row a of real scores with maximum M the kernel writes
  a(q) − (M + log Σ_k exp (a(k) − M)) and the reference (a(q) − M) − log Σ_k exp (a(k) − M): the same real number,
  since M, the sum (a positive real) and its logarithm are all real.  On extended reals the two differ when a score
  is +∞, which is why the scores' finiteness is needed and nothing else.
-/
import proofs.«156376_j6055903887402_1_alg».proof.Proof.KPayload
import proofs.«156376_j6055903887402_1_alg».proof.Proof.RefLayers
import proofs.«156376_j6055903887402_1_alg».proof.Proof.LibRealOps

noncomputable section

namespace Cert.Proof.Bridge

open Cert.Proof.KPayload Cert.Proof.RefLayers Cert.Proof.RealOps Idealize.ShloMosaic
open scoped BigOperators

/-- On a row of real scores the kernel's log-softmax and the reference's agree. -/
theorem lsm_eq_rlsm {a : Fin 47 → EReal} (ha : AllReal a) (q : Fin 47) : lsm a q = rlsm a q := by
  unfold lsm rlsm
  rw [logSoftmax_eq ha q]
  simp only [max_eq_right (bot_le : (⊥ : EReal) ≤ _), zero_add]

end Cert.Proof.Bridge

end
-- ==== Proof.lean ====
/-
  The certificate of a three-layer mean-aggregation graph network against its jnp reference.

  Both programs compute, from the node features x, the edge lists (src, dst) and three layers of weights,
      n(h)  = (the sum over edges e with dst e = v of row src e of h) / max(in-degree v, 1)
      h1    = relu (x·Ws0 + n(x)·Wn0 + b0),   h2 = relu (h1·Ws1 + n(h1)·Wn1 + b1),
      a     = h2·Ws2 + n(h2)·Wn2 + b2,        result = the log-softmax of each row of a.
  The kernel program leaves the gather and the scatter-add to the host, exactly as the reference states them, and
  runs each dense layer as a grid kernel over ten blocks of 10000 nodes; at the ideal instance a block's matrix
  product into a zero accumulator is the reference's product restricted to the block's rows, so the three output
  arrays are the reference's h1, h2 and, row by row, a log-softmax of the reference's scores a.  The kernel writes
  that log-softmax as a − (M + log Σ exp (a − M)) and the reference as (a − M) − log Σ exp (a − M), M the row's
  maximum; the two agree because every score is a real number, which follows from the precondition (every float
  input is finite) through the gather, the scatter-add, the reciprocal degree and the products — whatever the edge
  lists hold.  The ideal pass rewrote nothing, so the kernel's idealization claim is trivial.
-/
import proofs.«156376_j6055903887402_1_alg».proof.Defs
import proofs.«156376_j6055903887402_1_alg».proof.Proof.Gen.Kernel
import proofs.«156376_j6055903887402_1_alg».proof.Proof.Gen.KernelIdeal
import proofs.«156376_j6055903887402_1_alg».proof.Proof.Gen.ReferenceIdeal
import proofs.«156376_j6055903887402_1_alg».proof.Proof.Gen.Pre_finite_inputs
import proofs.«156376_j6055903887402_1_alg».proof.Proof.KernelFrameP
import proofs.«156376_j6055903887402_1_alg».proof.Proof.KernelIdealFrameP
import proofs.«156376_j6055903887402_1_alg».proof.Proof.KRun
import proofs.«156376_j6055903887402_1_alg».proof.Proof.KHost2
import proofs.«156376_j6055903887402_1_alg».proof.Proof.RefRun
import proofs.«156376_j6055903887402_1_alg».proof.Proof.Finite
import proofs.«156376_j6055903887402_1_alg».proof.Proof.FinitePre
import proofs.«156376_j6055903887402_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed terminates, faults nowhere and leaves its arguments as launched. -/
theorem frame_k : Cert.frame_Kernel := fun m ρ _ => Cert.Kernel.GenP.frame m ρ

/-- So does its idealization. -/
theorem frame_ki : Cert.frame_KernelIdeal := fun m ρ _ => Cert.KernelIdeal.GenP.frame m ρ

/-- The reference's frame is its run with the result dropped. -/
theorem frame_ri : Cert.frame_ReferenceIdeal := fun m ρ _ =>
  (θ_run Cert.ReferenceIdeal.defs _ _).mono (fun _ h c => (h c).2) (Cert.Proof.RefRun.run (F := Ideal) m ρ)

/-- Under the precondition the kernel program's result buffer ends at the reference's result term of the arguments:
    row by row the kernel's log-softmax of the reference's scores, which are real, is the reference's. -/
theorem result_eq (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) (c : Dev Cert.KernelIdeal.nD) :
    Cert.KernelIdeal.GenP.W6 m ρ c (Proc.devRef .tc Cert.KernelIdeal.main_v52)
      = Cert.ReferenceIdeal.ReadP.val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  obtain ⟨f0, f3, f4, f5, f6, f7, f8, f9, f10, f11⟩ := Cert.Proof.FinitePre.finite_of_pre _ _ _ _ _ _ _ _ _ _ _ _ (hpre c)
  have hreal := Cert.Proof.Finite.real_v66 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) f0 f3 f4 f5 f6 f7 f8 f9 f10 f11
  rw [Cert.Proof.KHost2.result m ρ c]
  funext i
  obtain ⟨r, q, rfl⟩ : ∃ (r : Fin 100000) (q : Fin 47), i = ix2 r q := ⟨i 0, i 1, eq_ix2 i⟩
  rw [Cert.Proof.RefLayers.out_apply]
  exact Cert.Proof.Bridge.lsm_eq_rlsm (fun j => hreal (ix2 r j)) q

/-- From memories agreeing on the arguments both idealized programs run and end with equal results. -/
theorem algebraic : Cert.algebraic_KernelIdeal_ReferenceIdeal := by
  intro m ρ m' ρ' hpre hagree
  refine ⟨fun c => Cert.ReferenceIdeal.ReadP.val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c => ⟨(h c).1.trans (result_eq m ρ hpre c), (h c).2⟩)
      (Cert.Proof.KRun.run_result (F := Ideal) m ρ)
  · refine (θ_run Cert.ReferenceIdeal.defs _ _).mono (fun r h c => ⟨(h c).1.trans ?_, (h c).2⟩)
      (Cert.Proof.RefRun.run (F := Ideal) m' ρ')
    obtain ⟨e0, e1, e2, e3, e4, e5, e6, e7, e8, e9, e10, e11⟩ := hagree c
    rw [e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
